-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg12 : FVec F S64x10 .f32) (main_arg13 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x10 .f32 := Host.absf main_arg12
  let main_cst_20 : FVec F S_ .f32 := constant S_ .f32 0x7F800000#32
  let main_v55 : FVec F S64x10 .f32 := broadcastInDim S64x10 ![] bcast_S_S64x10 main_cst_20
  let main_v56 : IVec S64x10 1 := cmpf .olt main_v54 main_v55
  let main_c_21 : IVec S_ 1 := constantI S_ 1 1#1
  let main_v57 : IVec S_ 1 := (fun x v => Host.reduce IntOp.andi x v reducesTo_S64x10_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64x10 .f32) (main_arg13 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64x10 .f32) (main_arg13 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64x10 .f32) (main_arg13 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x10 : Shape := ⟨2, ![1, 10]⟩
abbrev S100000x10 : Shape := ⟨2, ![100000, 10]⟩
abbrev S5000x10 : Shape := ⟨2, ![5000, 10]⟩

abbrev nBuf : Space → Nat
  | .hbm => 84
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x10, .f32⟩
  | .hbm, ⟨13, _⟩ => ⟨S10, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x64, .f32⟩
  | .hbm, ⟨32, _⟩ => ⟨S1x64, .f32⟩
  | .hbm, ⟨33, _⟩ => ⟨S100000x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .i32⟩
  | .hbm, ⟨40, _⟩ => ⟨S_, .f32⟩
  | .hbm, ⟨41, _⟩ => ⟨S64, .f32⟩
  | .hbm, ⟨42, _⟩ => ⟨S1x64, .f32⟩
  | .hbm, ⟨43, _⟩ => ⟨S_, .f32⟩
  | .hbm, ⟨44, _⟩ => ⟨S1x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S1x64, .f32⟩
  | .hbm, ⟨81, _⟩ => ⟨S1x64, .f32⟩
  | .hbm, ⟨82, _⟩ => ⟨S1x10, .f32⟩
  | .hbm, ⟨83, _⟩ => ⟨S100000x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x10, .f32⟩
  | .local _ .vmem, ⟨27, _⟩ => ⟨S1x10, .f32⟩
  | .local _ .vmem, ⟨28, _⟩ => ⟨S5000x10, .f32⟩
  | .local _ .vmem, ⟨29, _⟩ => ⟨S5000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_c_4 : Ref sig .tc := ⟨.hbm, 67, rfl⟩
abbrev main_v26 : Ref sig .tc := ⟨.hbm, 68, rfl⟩
abbrev main_v27 : Ref sig .tc := ⟨.hbm, 69, rfl⟩
abbrev main_c_5 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_6 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x10 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x10.size a ≤ S64x10.size a
  hwx2_6 : ∀ i : grid2.Coords, EltTy.bits .f32 = 32 ∨ (Rect.block (s := S64x10) S64x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x10.size a ≤ S1x10.size a
  hwx2_7 : ∀ i : grid2.Coords, EltTy.bits .f32 = 32 ∨ (Rect.block (s := S1x10) S1x10.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x10.size a ≤ S100000x10.size a
  hwx2_8 : ∀ i : grid2.Coords, EltTy.bits .f32 = 32 ∨ (Rect.block (s := S100000x10) S5000x10.size (cc2_transform_8 i) (hinb2_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S64x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S1x10.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v39) S5000x10.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x10 : Shape := ⟨2, ![100000, 10]⟩
abbrev S1x10 : Shape := ⟨2, ![1, 10]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x10, .f32⟩
  | .hbm, ⟨13, _⟩ => ⟨S10, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .i32⟩
  | .hbm, ⟨49, _⟩ => ⟨S_, .f32⟩
  | .hbm, ⟨50, _⟩ => ⟨S64, .f32⟩
  | .hbm, ⟨51, _⟩ => ⟨S1x64, .f32⟩
  | .hbm, ⟨52, _⟩ => ⟨S_, .f32⟩
  | .hbm, ⟨53, _⟩ => ⟨S1x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S100000x10, .f32⟩
  | .hbm, ⟨113, _⟩ => ⟨S1x10, .f32⟩
  | .hbm, ⟨114, _⟩ => ⟨S100000x10, .f32⟩
  | .hbm, ⟨115, _⟩ => ⟨S100000x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_cst_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_cst_1 : Ref sig .tc := ⟨.hbm, 59, rfl⟩
abbrev main_call1_v8 : Ref sig .tc := ⟨.hbm, 60, rfl⟩
abbrev main_call1_cst_2 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_cst_3 : Ref sig .tc := ⟨.hbm, 65, rfl⟩
abbrev main_call1_v12 : Ref sig .tc := ⟨.hbm, 66, rfl⟩
abbrev main_call1_cst_4 : Ref sig .tc := ⟨.hbm, 67, rfl⟩
abbrev main_call1_call0_v0 : Ref sig .tc := ⟨.hbm, 68, rfl⟩
abbrev main_call1_call0_v1 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_4 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c_5 : Ref sig .tc := ⟨.hbm, 87, rfl⟩
abbrev main_v43 : Ref sig .tc := ⟨.hbm, 88, rfl⟩
abbrev main_v44 : Ref sig .tc := ⟨.hbm, 89, rfl⟩
abbrev main_c_6 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_7 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_call2_cst : Ref sig .tc := ⟨.hbm, 105, rfl⟩
abbrev main_call2_v0 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.Stages.lean ====
/-
  The stages of a two-layer graph network with sum aggregation, as whole-array functions over the extended reals.

  A node matrix x (100000 × 64) and an edge list (2 × 1600000: row 0 the source node of each edge, row 1 its
  destination).  `agg x e` is, per destination node, the sum of the source rows of the edges arriving there (a negative
  source index first wrapped by the node count).  `mlp` is an affine map, a clamp at zero from below and a second affine
  map; `meanv` and `varv` are the column mean and the biased column variance; `bn` normalises each column by them and
  applies a scale and a shift; `head` is the last affine map to ten columns.  `out` composes them: aggregate and
  transform, normalise, aggregate and transform again, project.
-/
import proofs.«167703_j16226386444396_1_alg».proof.Proof.Gen.ReferenceIdeal
import Idealize.ShloMosaic.PureOps.Ideal

noncomputable section

namespace Cert.Stages

open Idealize.ShloMosaic Cert.ReferenceIdeal Cert.ReferenceIdeal.Facts₀

/-- The contents of a buffer of the given shape and element type, over the extended reals. -/
abbrev C (S : Shape) (e : EltTy) : Type := (⟨S, e⟩ : BufTy).Contents (Elt Ideal)

/-- Row 0 of the edge list as a column of node indices, a negative index wrapped by adding the node count. -/
def srcCol (e : C S2x1600000 .i32) : C S1600000x1 .i32 :=
  let v1 : C S1600000 .i32 := shapeCast S1600000 (extractStridedSlice S1x1600000 ![0, 0] e slices_S2x1600000_S1x1600000_0_0) shapeCasts_S1x1600000_S1600000
  let z : C S1600000 .i32 := broadcastInDim S1600000 ![] bcast_S_S1600000 (constantI S_ 32 0#32 : C S_ .i32)
  let n : C S1600000 .i32 := broadcastInDim S1600000 ![] bcast_S_S1600000 (constantI S_ 32 100000#32 : C S_ .i32)
  let lt : C S1600000 .i1 := cmpi .slt v1 z
  let w : C S1600000 .i32 := select lt (addi v1 n) v1
  broadcastInDim S1600000x1 ![0] bcast_S1600000_S1600000x1_0 w

/-- Row 1 of the edge list as a column of node indices. -/
def dstCol (e : C S2x1600000 .i32) : C S1600000x1 .i32 :=
  let v3 : C S1600000 .i32 := shapeCast S1600000 (extractStridedSlice S1x1600000 ![1, 0] e slices_S2x1600000_S1x1600000_1_0) shapeCasts_S1x1600000_S1600000
  broadcastInDim S1600000x1 ![0] bcast_S1600000_S1600000x1_0 v3

/-- Per destination node, the sum of the source rows of the edges arriving there. -/
def agg (x : FVec Ideal S100000x64 .f32) (e : C S2x1600000 .i32) : FVec Ideal S100000x64 .f32 :=
  Host.scatterAdd scatter_S100000x64_S1600000x1_S1600000x64_1_0_0_1
    (broadcastInDim S100000x64 ![] bcast_S_S100000x64 (constant (F := Ideal) S_ .f32 0x00000000#32 : FVec Ideal S_ .f32) : FVec Ideal S100000x64 .f32)
    (dstCol e)
    (Host.gather gather_S100000x64_S1600000x1_S1600000x64_1_0_n_n_0_1_164 x (srcCol e) : FVec Ideal S1600000x64 .f32)

/-- A vector of 64 entries repeated down the 100000 rows. -/
def rowB (b : FVec Ideal S64 .f32) : FVec Ideal S100000x64 .f32 :=
  broadcastInDim S100000x64 ![0, 1] bcast_S1x64_S100000x64_0_1 (broadcastInDim S1x64 ![1] bcast_S64_S1x64_1 b : FVec Ideal S1x64 .f32)

/-- The clamp at zero from below. -/
def relu (z : FVec Ideal S100000x64 .f32) : FVec Ideal S100000x64 .f32 :=
  maximumf z (broadcastInDim S100000x64 ![] bcast_S_S100000x64 (constant (F := Ideal) S_ .f32 0x00000000#32 : FVec Ideal S_ .f32) : FVec Ideal S100000x64 .f32)

/-- An affine map of the rows: h · w + b. -/
def lin (h : FVec Ideal S100000x64 .f32) (w : FVec Ideal S64x64 .f32) (b : FVec Ideal S64 .f32) : FVec Ideal S100000x64 .f32 :=
  addf (Host.dotGeneral dot_S100000x64_S64x64_S100000x64_1_0_0_1_n_n none h w : FVec Ideal S100000x64 .f32) (rowB b)

/-- Affine, clamp, affine. -/
def mlp (h : FVec Ideal S100000x64 .f32) (wa : FVec Ideal S64x64 .f32) (ba : FVec Ideal S64 .f32) (wb : FVec Ideal S64x64 .f32) (bb : FVec Ideal S64 .f32) : FVec Ideal S100000x64 .f32 :=
  lin (relu (lin h wa ba)) wb bb

/-- One layer: the node's own row plus the aggregate of its neighbours', through `mlp`. -/
def conv (x : FVec Ideal S100000x64 .f32) (e : C S2x1600000 .i32) (wa : FVec Ideal S64x64 .f32) (ba : FVec Ideal S64 .f32) (wb : FVec Ideal S64x64 .f32) (bb : FVec Ideal S64 .f32) : FVec Ideal S100000x64 .f32 :=
  mlp (addf x (agg x e)) wa ba wb bb

/-- The column sums. -/
def colSum (h : FVec Ideal S100000x64 .f32) : FVec Ideal S64 .f32 :=
  Host.reduceAdd h (constant (F := Ideal) S_ .f32 0x00000000#32 : FVec Ideal S_ .f32) reducesTo_S100000x64_S64_d0 h_S_

/-- The column means. -/
def meanv (h : FVec Ideal S100000x64 .f32) : FVec Ideal S64 .f32 :=
  Host.divf (colSum h) (broadcastInDim S64 ![] bcast_S_S64 (constant (F := Ideal) S_ .f32 0x47C35000#32 : FVec Ideal S_ .f32) : FVec Ideal S64 .f32)

/-- The biased column variances (the divisor is the row count minus zero degrees of freedom). -/
def varv (h : FVec Ideal S100000x64 .f32) : FVec Ideal S64 .f32 :=
  let mu : FVec Ideal S1x64 .f32 := Host.divf (broadcastInDim S1x64 ![1] bcast_S64_S1x64_1 (colSum h) : FVec Ideal S1x64 .f32)
    (broadcastInDim S1x64 ![] bcast_S_S1x64 (constant (F := Ideal) S_ .f32 0x47C35000#32 : FVec Ideal S_ .f32) : FVec Ideal S1x64 .f32)
  let d : FVec Ideal S100000x64 .f32 := subf h (broadcastInDim S100000x64 ![0, 1] bcast_S1x64_S100000x64_0_1 mu : FVec Ideal S100000x64 .f32)
  let n : FVec Ideal S_ .f32 := subf (constant (F := Ideal) S_ .f32 0x47C35000#32 : FVec Ideal S_ .f32) (sitofp .f32 (constantI S_ 32 0#32 : C S_ .i32) : FVec Ideal S_ .f32)
  let q : FVec Ideal S64 .f32 := Host.divf (colSum (mulf d d)) (broadcastInDim S64 ![] bcast_S_S64 n : FVec Ideal S64 .f32)
  let p : C S_ .i1 := cmpf .ogt n (constant (F := Ideal) S_ .f32 0x00000000#32 : FVec Ideal S_ .f32)
  let nan : FVec Ideal S64 .f32 := broadcastInDim S64 ![] bcast_S_S64 (id (constant (F := Ideal) S_ .f32 0x7FC00000#32 : FVec Ideal S_ .f32) : FVec Ideal S_ .f32)
  select (broadcastInDim S64 ![] bcast_S_S64 p : C S64 .i1) q nan

/-- Each column shifted by `mean`, scaled by the reciprocal square root of `var` plus a small constant, then by `g`,
    and shifted by `b`. -/
def bn (h : FVec Ideal S100000x64 .f32) (mean var g b : FVec Ideal S64 .f32) : FVec Ideal S100000x64 .f32 :=
  let inv : FVec Ideal S64 .f32 := Host.rsqrt (addf var (broadcastInDim S64 ![] bcast_S_S64 (constant (F := Ideal) S_ .f32 0x3727C5AC#32 : FVec Ideal S_ .f32) : FVec Ideal S64 .f32) : FVec Ideal S64 .f32)
  addf (mulf (mulf (subf h (rowB mean)) (rowB inv)) (rowB g)) (rowB b)

/-- Normalisation by the array's own column statistics. -/
def norm (h : FVec Ideal S100000x64 .f32) (g b : FVec Ideal S64 .f32) : FVec Ideal S100000x64 .f32 :=
  bn h (meanv h) (varv h) g b

/-- The last affine map, to ten columns. -/
def head (h : FVec Ideal S100000x64 .f32) (w : FVec Ideal S64x10 .f32) (b : FVec Ideal S10 .f32) : FVec Ideal S100000x10 .f32 :=
  addf (Host.dotGeneral dot_S100000x64_S64x10_S100000x10_1_0_0_1_n_n none h w : FVec Ideal S100000x10 .f32)
    (broadcastInDim S100000x10 ![0, 1] bcast_S1x10_S100000x10_0_1 (broadcastInDim S1x10 ![1] bcast_S10_S1x10_1 b : FVec Ideal S1x10 .f32) : FVec Ideal S100000x10 .f32)

/-- The whole network. -/
def out (x : FVec Ideal S100000x64 .f32) (e : C S2x1600000 .i32) (w1a : FVec Ideal S64x64 .f32) (b1a : FVec Ideal S64 .f32) (w1b : FVec Ideal S64x64 .f32) (b1b : FVec Ideal S64 .f32)
    (g be : FVec Ideal S64 .f32) (w2a : FVec Ideal S64x64 .f32) (b2a : FVec Ideal S64 .f32) (w2b : FVec Ideal S64x64 .f32) (b2b : FVec Ideal S64 .f32)
    (lw : FVec Ideal S64x10 .f32) (lb : FVec Ideal S10 .f32) : FVec Ideal S100000x10 .f32 :=
  let h1 := norm (conv x e w1a b1a w1b b1b) g be
  head (conv h1 e w2a b2a w2b b2b) lw lb

end Cert.Stages

end
-- ==== Proof.KHost.lean ====
/-
  What the kernel program's host stretches leave in the buffers the regions read.

  Between the regions the program runs short stretches of host operations.  A buffer no operation of a stretch
  writes keeps its contents across the stretch, and a buffer that is not one of a region's arrays — or is one of its
  input arrays — keeps its contents across the region; so the arguments, and values computed early and read late (the
  two index vectors of the edge list), are carried unchanged to where they are read.  The buffers a stretch does
  write hold its operations' values of the contents before it: the edge aggregate, the bias rows, the column mean and
  variance.
-/
import proofs.«167703_j16226386444396_1_alg».proof.Proof.Gen.KernelIdeal.Frame
import Idealize.ShloMosaic.Lib.StableHlo.Run
import Idealize.ShloMosaic.Lib.ValueIdx
import Idealize.ShloMosaic.Lib.Pipeline.Value
import proofs.«167703_j16226386444396_1_alg».proof.Proof.Stages

set_option maxRecDepth 16384

noncomputable section

namespace Cert.KernelIdeal.KHost

open Idealize.ShloMosaic Idealize.ShloMosaic.TcCoe Idealize.SL.Sem
open Cert.KernelIdeal Cert.KernelIdeal.Gen

/-- No operation of the stretch writes the buffer: it keeps its contents. -/
macro "not_written" : tactic => `(tactic| (
  refine StableHlo.after_of_forall_not_mem _ _ (List.forall_iff_forall_mem.mp ?_)
  simp only [hostOps0, hostOps1, hostOps1_1, hostOps1_2, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

section Carried
variable {F : FTy → Type} [FloatOps F]
variable (m : (ℓ : Loc nD τ sig) → Buf (Elt F) ℓ) (ρ : Dev nD → PrngReg)

/-! ## Buffers carried unchanged -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by not_written
    _ = m ((c : Thread nD τ).loc main_arg0) := rfl

theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by not_written
    _ = m ((c : Thread nD τ).loc main_arg2) := rfl

theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by not_written
    _ = m ((c : Thread nD τ).loc main_arg4) := rfl

theorem W5_v16 (c : Dev nD) : W5 m ρ c (Proc.devRef .tc main_v16) = W2 m ρ c (Proc.devRef .tc main_v16) :=
  calc W5 m ρ c (Proc.devRef .tc main_v16)
    _ = W4 m ρ c (Proc.devRef .tc main_v16) := by not_written
    _ = W3 m ρ c (Proc.devRef .tc main_v16) := by not_written
    _ = W2 m ρ c (Proc.devRef .tc main_v16) := by not_written

theorem W3_v16 (c : Dev nD) : W3 m ρ c (Proc.devRef .tc main_v16) = W2 m ρ c (Proc.devRef .tc main_v16) :=
  calc W3 m ρ c (Proc.devRef .tc main_v16)
    _ = W2 m ρ c (Proc.devRef .tc main_v16) := by not_written

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by not_written
    _ = W2 m ρ c (Proc.devRef .tc main_arg6) := by not_written
    _ = W1 m ρ c (Proc.devRef .tc main_arg6) := W2_of_ne m ρ c main_arg6 (by decide)
    _ = W0 m ρ c (Proc.devRef .tc main_arg6) := by not_written
    _ = m ((c : Thread nD τ).loc main_arg6) := rfl

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := by not_written
    _ = W2 m ρ c (Proc.devRef .tc main_arg7) := by not_written
    _ = W1 m ρ c (Proc.devRef .tc main_arg7) := W2_of_ne m ρ c main_arg7 (by decide)
    _ = W0 m ρ c (Proc.devRef .tc main_arg7) := by not_written
    _ = m ((c : Thread nD τ).loc main_arg7) := rfl

theorem W4_v19 (c : Dev nD) : W4 m ρ c (Proc.devRef .tc main_v19) = W3 m ρ c (Proc.devRef .tc main_v19) :=
  calc W4 m ρ c (Proc.devRef .tc main_v19)
    _ = W3 m ρ c (Proc.devRef .tc main_v19) := by not_written

theorem W7_v25 (c : Dev nD) : W7 m ρ c (Proc.devRef .tc main_v25) = W6 m ρ c (Proc.devRef .tc main_v25) :=
  calc W7 m ρ c (Proc.devRef .tc main_v25)
    _ = W6 m ρ c (Proc.devRef .tc main_v25) := by not_written

theorem W6_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by not_written
    _ = W3 m ρ c (Proc.devRef .tc main_v1) := by not_written
    _ = W2 m ρ c (Proc.devRef .tc main_v1) := by not_written
    _ = W1 m ρ c (Proc.devRef .tc main_v1) := W2_of_ne m ρ c main_v1 (by decide)

theorem W6_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by not_written
    _ = W3 m ρ c (Proc.devRef .tc main_v3) := by not_written
    _ = W2 m ρ c (Proc.devRef .tc main_v3) := by not_written
    _ = W1 m ρ c (Proc.devRef .tc main_v3) := W2_of_ne m ρ c main_v3 (by decide)

theorem W7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := by not_written
    _ = W5 m ρ c (Proc.devRef .tc main_arg8) := W6_of_ne m ρ c main_arg8 (by decide)
    _ = W4 m ρ c (Proc.devRef .tc main_arg8) := by not_written
    _ = W3 m ρ c (Proc.devRef .tc main_arg8) := by not_written
    _ = W2 m ρ c (Proc.devRef .tc main_arg8) := by not_written
    _ = W1 m ρ c (Proc.devRef .tc main_arg8) := W2_of_ne m ρ c main_arg8 (by decide)
    _ = W0 m ρ c (Proc.devRef .tc main_arg8) := by not_written
    _ = m ((c : Thread nD τ).loc main_arg8) := rfl

theorem W7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := by not_written
    _ = W5 m ρ c (Proc.devRef .tc main_arg10) := W6_of_ne m ρ c main_arg10 (by decide)
    _ = W4 m ρ c (Proc.devRef .tc main_arg10) := by not_written
    _ = W3 m ρ c (Proc.devRef .tc main_arg10) := by not_written
    _ = W2 m ρ c (Proc.devRef .tc main_arg10) := by not_written
    _ = W1 m ρ c (Proc.devRef .tc main_arg10) := W2_of_ne m ρ c main_arg10 (by decide)
    _ = W0 m ρ c (Proc.devRef .tc main_arg10) := by not_written
    _ = m ((c : Thread nD τ).loc main_arg10) := rfl

theorem W7_arg12 (c : Dev nD) : W7 m ρ c (Proc.devRef .tc main_arg12) = m ((c : Thread nD τ).loc main_arg12) :=
  calc W7 m ρ c (Proc.devRef .tc main_arg12)
    _ = W6 m ρ c (Proc.devRef .tc main_arg12) := by not_written
    _ = W5 m ρ c (Proc.devRef .tc main_arg12) := W6_of_ne m ρ c main_arg12 (by decide)
    _ = W4 m ρ c (Proc.devRef .tc main_arg12) := by not_written
    _ = W3 m ρ c (Proc.devRef .tc main_arg12) := by not_written
    _ = W2 m ρ c (Proc.devRef .tc main_arg12) := by not_written
    _ = W1 m ρ c (Proc.devRef .tc main_arg12) := W2_of_ne m ρ c main_arg12 (by decide)
    _ = W0 m ρ c (Proc.devRef .tc main_arg12) := by not_written
    _ = m ((c : Thread nD τ).loc main_arg12) := rfl

theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by not_written
    _ = W3 m ρ c (Proc.devRef .tc main_arg9) := by not_written
    _ = W2 m ρ c (Proc.devRef .tc main_arg9) := by not_written
    _ = W1 m ρ c (Proc.devRef .tc main_arg9) := W2_of_ne m ρ c main_arg9 (by decide)
    _ = W0 m ρ c (Proc.devRef .tc main_arg9) := by not_written
    _ = m ((c : Thread nD τ).loc main_arg9) := rfl

theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by not_written
    _ = W3 m ρ c (Proc.devRef .tc main_arg11) := by not_written
    _ = W2 m ρ c (Proc.devRef .tc main_arg11) := by not_written
    _ = W1 m ρ c (Proc.devRef .tc main_arg11) := W2_of_ne m ρ c main_arg11 (by decide)
    _ = W0 m ρ c (Proc.devRef .tc main_arg11) := by not_written
    _ = m ((c : Thread nD τ).loc main_arg11) := rfl

theorem W6_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := by not_written
    _ = W3 m ρ c (Proc.devRef .tc main_arg13) := by not_written
    _ = W2 m ρ c (Proc.devRef .tc main_arg13) := by not_written
    _ = W1 m ρ c (Proc.devRef .tc main_arg13) := W2_of_ne m ρ c main_arg13 (by decide)
    _ = W0 m ρ c (Proc.devRef .tc main_arg13) := by not_written
    _ = m ((c : Thread nD τ).loc main_arg13) := rfl

end Carried

/-! ## Buffers a stretch writes -/

section Values
open Idealize.ShloMosaic.ValueIdx
variable (m : (ℓ : Loc nD τ sig) → Buf (Elt Ideal) ℓ) (ρ : Dev nD → PrngReg)

/-- A vector of n entries laid out as a 1 × n row reads, at (0, j), the vector at j. -/
theorem shapeCast_row {α : Type} {n : ℕ} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) :=
  shapeCast_apply x h _ _ (by
    rw [Shape.rowMajor_val_two, Shape.rowMajor_val_one]
    show j.val = 0 * n + j.val
    omega)

set_option maxHeartbeats 1600000 in
/-- Before the first region the aggregate buffer holds, per destination node, the sum of the source rows of x. -/
theorem W1_v13 (c : Dev nD) : W1 m ρ c (Proc.devRef .tc main_v13) = Cert.Stages.agg (m ((c : Thread nD τ).loc main_arg0)) (m ((c : Thread nD τ).loc main_arg1)) := by
  show StableHlo.after hostOps0 (W0 m ρ c) (Proc.devRef .tc main_v13) = _
  after_results_simp
  rfl

/-- The source-index vector (row 0 of the edge list). -/
theorem W1_v1 (c : Dev nD) : W1 m ρ c (Proc.devRef .tc main_v1)
    = shapeCast S1600000 (extractStridedSlice S1x1600000 ![0, 0] (m ((c : Thread nD τ).loc main_arg1)) Facts₀.slices_S2x1600000_S1x1600000_0_0) Facts₀.shapeCasts_S1x1600000_S1600000 := by
  show StableHlo.after hostOps0 (W0 m ρ c) (Proc.devRef .tc main_v1) = _
  after_results
  rfl

/-- The destination-index vector (row 1 of the edge list). -/
theorem W1_v3 (c : Dev nD) : W1 m ρ c (Proc.devRef .tc main_v3)
    = shapeCast S1600000 (extractStridedSlice S1x1600000 ![1, 0] (m ((c : Thread nD τ).loc main_arg1)) Facts₀.slices_S2x1600000_S1x1600000_1_0) Facts₀.shapeCasts_S1x1600000_S1600000 := by
  show StableHlo.after hostOps0 (W0 m ρ c) (Proc.devRef .tc main_v3) = _
  after_results
  rfl

/-- The first bias as a row. -/
theorem row_v14 (c : Dev nD) (j : Fin 64) :
    (V1 m ρ c main_v14 : S1x64.Idx → EReal) (ix2 (0 : Fin 1) j) = ((m ((c : Thread nD τ).loc main_arg3)) : FVec Ideal S64 .f32) (ix1 j) := by
  have e : W1 m ρ c (Proc.devRef .tc main_v14) = shapeCast S1x64 (m ((c : Thread nD τ).loc main_arg3)) Facts₀.shapeCasts_S64_S1x64 := by
    show StableHlo.after hostOps0 (W0 m ρ c) (Proc.devRef .tc main_v14) = _
    after_results
    rfl
  show (W1 m ρ c (Proc.devRef .tc main_v14) : S1x64.Idx → EReal) _ = _
  rw [e]
  exact shapeCast_row _ _ j

/-- The second bias as a row. -/
theorem row_v15 (c : Dev nD) (j : Fin 64) :
    (V1 m ρ c main_v15 : S1x64.Idx → EReal) (ix2 (0 : Fin 1) j) = ((m ((c : Thread nD τ).loc main_arg5)) : FVec Ideal S64 .f32) (ix1 j) := by
  have e : W1 m ρ c (Proc.devRef .tc main_v15) = shapeCast S1x64 (m ((c : Thread nD τ).loc main_arg5)) Facts₀.shapeCasts_S64_S1x64 := by
    show StableHlo.after hostOps0 (W0 m ρ c) (Proc.devRef .tc main_v15) = _
    after_results
    rfl
  show (W1 m ρ c (Proc.devRef .tc main_v15) : S1x64.Idx → EReal) _ = _
  rw [e]
  exact shapeCast_row _ _ j

/-- After the first region, the column means of its output. -/
theorem W3_v19 (c : Dev nD) : W3 m ρ c (Proc.devRef .tc main_v19) = Cert.Stages.meanv (W2 m ρ c (Proc.devRef .tc main_v16)) := by
  show StableHlo.after hostOps1 (W2 m ρ c) (Proc.devRef .tc main_v19) = _
  after_results
  rfl

/-- The degrees-of-freedom constant the variance reads: zero. -/
theorem W3_c3 (c : Dev nD) : W3 m ρ c (Proc.devRef .tc main_c_3) = (constantI S_ 32 0#32 : Cert.Stages.C S_ .i32) := by
  show StableHlo.after hostOps1 (W2 m ρ c) (Proc.devRef .tc main_c_3) = _
  after_results

set_option maxHeartbeats 1600000 in
/-- The column variances of the first region's output. -/
theorem W4_v20 (c : Dev nD) : W4 m ρ c (Proc.devRef .tc main_v20) = Cert.Stages.varv (W2 m ρ c (Proc.devRef .tc main_v16)) := by
  show StableHlo.after hostOps1_1 (W3 m ρ c) (Proc.devRef .tc main_v20) = _
  after_results_simp
  rfl

/-- The column means as a row. -/
theorem row_v21 (c : Dev nD) (j : Fin 64) :
    (V5 m ρ c main_v21 : S1x64.Idx → EReal) (ix2 (0 : Fin 1) j) = (Cert.Stages.meanv (W2 m ρ c (Proc.devRef .tc main_v16)) : FVec Ideal S64 .f32) (ix1 j) := by
  have e : W5 m ρ c (Proc.devRef .tc main_v21) = shapeCast S1x64 (W4 m ρ c (Proc.devRef .tc main_v19)) Facts₀.shapeCasts_S64_S1x64 := by
    show StableHlo.after hostOps1_2 (W4 m ρ c) (Proc.devRef .tc main_v21) = _
    generalize W4 m ρ c = Wv
    after_results
    rfl
  show (W5 m ρ c (Proc.devRef .tc main_v21) : S1x64.Idx → EReal) _ = _
  rw [e, W4_v19 m ρ c, W3_v19 m ρ c]
  exact shapeCast_row _ _ j

/-- The column variances as a row. -/
theorem row_v22 (c : Dev nD) (j : Fin 64) :
    (V5 m ρ c main_v22 : S1x64.Idx → EReal) (ix2 (0 : Fin 1) j) = (Cert.Stages.varv (W2 m ρ c (Proc.devRef .tc main_v16)) : FVec Ideal S64 .f32) (ix1 j) := by
  have e : W5 m ρ c (Proc.devRef .tc main_v22) = shapeCast S1x64 (W4 m ρ c (Proc.devRef .tc main_v20)) Facts₀.shapeCasts_S64_S1x64 := by
    show StableHlo.after hostOps1_2 (W4 m ρ c) (Proc.devRef .tc main_v22) = _
    generalize W4 m ρ c = Wv
    after_results
    rfl
  show (W5 m ρ c (Proc.devRef .tc main_v22) : S1x64.Idx → EReal) _ = _
  rw [e, W4_v20 m ρ c]
  exact shapeCast_row _ _ j

/-- The scale as a row. -/
theorem row_v23 (c : Dev nD) (j : Fin 64) :
    (V5 m ρ c main_v23 : S1x64.Idx → EReal) (ix2 (0 : Fin 1) j) = ((m ((c : Thread nD τ).loc main_arg6)) : FVec Ideal S64 .f32) (ix1 j) := by
  have e : W5 m ρ c (Proc.devRef .tc main_v23) = shapeCast S1x64 (W4 m ρ c (Proc.devRef .tc main_arg6)) Facts₀.shapeCasts_S64_S1x64 := by
    show StableHlo.after hostOps1_2 (W4 m ρ c) (Proc.devRef .tc main_v23) = _
    generalize W4 m ρ c = Wv
    after_results
    rfl
  show (W5 m ρ c (Proc.devRef .tc main_v23) : S1x64.Idx → EReal) _ = _
  rw [e, W4_arg6 m ρ c]
  exact shapeCast_row _ _ j

/-- The shift as a row. -/
theorem row_v24 (c : Dev nD) (j : Fin 64) :
    (V5 m ρ c main_v24 : S1x64.Idx → EReal) (ix2 (0 : Fin 1) j) = ((m ((c : Thread nD τ).loc main_arg7)) : FVec Ideal S64 .f32) (ix1 j) := by
  have e : W5 m ρ c (Proc.devRef .tc main_v24) = shapeCast S1x64 (W4 m ρ c (Proc.devRef .tc main_arg7)) Facts₀.shapeCasts_S64_S1x64 := by
    show StableHlo.after hostOps1_2 (W4 m ρ c) (Proc.devRef .tc main_v24) = _
    generalize W4 m ρ c = Wv
    after_results
    rfl
  show (W5 m ρ c (Proc.devRef .tc main_v24) : S1x64.Idx → EReal) _ = _
  rw [e, W4_arg7 m ρ c]
  exact shapeCast_row _ _ j

set_option maxHeartbeats 1600000 in
/-- Before the last region the aggregate buffer holds the sums of the source rows of the normalised array. -/
theorem W7_v35 (c : Dev nD) : W7 m ρ c (Proc.devRef .tc main_v35)
    = Cert.Stages.agg (W6 m ρ c (Proc.devRef .tc main_v25)) (m ((c : Thread nD τ).loc main_arg1)) := by
  show StableHlo.after hostOps2 (W6 m ρ c) (Proc.devRef .tc main_v35) = _
  after_results_simp
  rw [W6_v1 m ρ c, W6_v3 m ρ c, W1_v1 m ρ c, W1_v3 m ρ c]
  rfl

/-- The second layer's first bias as a row. -/
theorem row_v36 (c : Dev nD) (j : Fin 64) :
    (V7 m ρ c main_v36 : S1x64.Idx → EReal) (ix2 (0 : Fin 1) j) = ((m ((c : Thread nD τ).loc main_arg9)) : FVec Ideal S64 .f32) (ix1 j) := by
  have e : W7 m ρ c (Proc.devRef .tc main_v36) = shapeCast S1x64 (W6 m ρ c (Proc.devRef .tc main_arg9)) Facts₀.shapeCasts_S64_S1x64 := by
    show StableHlo.after hostOps2 (W6 m ρ c) (Proc.devRef .tc main_v36) = _
    generalize W6 m ρ c = Wv
    after_results
    rfl
  show (W7 m ρ c (Proc.devRef .tc main_v36) : S1x64.Idx → EReal) _ = _
  rw [e, W6_arg9 m ρ c]
  exact shapeCast_row _ _ j

/-- The second layer's second bias as a row. -/
theorem row_v37 (c : Dev nD) (j : Fin 64) :
    (V7 m ρ c main_v37 : S1x64.Idx → EReal) (ix2 (0 : Fin 1) j) = ((m ((c : Thread nD τ).loc main_arg11)) : FVec Ideal S64 .f32) (ix1 j) := by
  have e : W7 m ρ c (Proc.devRef .tc main_v37) = shapeCast S1x64 (W6 m ρ c (Proc.devRef .tc main_arg11)) Facts₀.shapeCasts_S64_S1x64 := by
    show StableHlo.after hostOps2 (W6 m ρ c) (Proc.devRef .tc main_v37) = _
    generalize W6 m ρ c = Wv
    after_results
    rfl
  show (W7 m ρ c (Proc.devRef .tc main_v37) : S1x64.Idx → EReal) _ = _
  rw [e, W6_arg11 m ρ c]
  exact shapeCast_row _ _ j

/-- The projection's bias as a row. -/
theorem row_v38 (c : Dev nD) (j : Fin 10) :
    (V7 m ρ c main_v38 : S1x10.Idx → EReal) (ix2 (0 : Fin 1) j) = ((m ((c : Thread nD τ).loc main_arg13)) : FVec Ideal S10 .f32) (ix1 j) := by
  have e : W7 m ρ c (Proc.devRef .tc main_v38) = shapeCast S1x10 (W6 m ρ c (Proc.devRef .tc main_arg13)) Facts₀.shapeCasts_S10_S1x10 := by
    show StableHlo.after hostOps2 (W6 m ρ c) (Proc.devRef .tc main_v38) = _
    generalize W6 m ρ c = Wv
    after_results
    rfl
  show (W7 m ρ c (Proc.devRef .tc main_v38) : S1x10.Idx → EReal) _ = _
  rw [e, W6_arg13 m ρ c]
  exact shapeCast_row _ _ j

end Values

end Cert.KernelIdeal.KHost

end
-- ==== Proof.KRun.lean ====
/-
  The kernel program's run with its result named.

  The program is three pipelined regions among stretches of host operations.  From any launch memory with zero
  counters every weakly fair execution terminates without a fault; the final state holds, at every buffer that
  outlives the run, the contents the segments leave there one after the other — host stretches as their operations'
  fold, each region as its arrays after the write-backs.  Read at the result buffer this names the program's result;
  read at the argument buffers it says they end as launched.
-/
import proofs.«167703_j16226386444396_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents
    the last region's write-backs leave in it, and every argument array as launched. -/
theorem run_value : θ_run defs (onTc (τ := τ) (main (F := F))) ⟨m, fun _ => 0, ρ⟩ (fun r => ∀ c : Dev nD,
      r.2.mem ((c.tc : Thread nD τ).loc main_v39) = W8 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v39 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.KRun

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«167703_j16226386444396_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.Region0Row.lean ====
/-
  One entry of a two-layer perceptron applied row by row, read two ways.

  For a row x and a row a of 64 entries each, two 64 × 64 matrices wa, wb and two vectors ba, bb, the entry q of the
  result is   ∑ c2, max (∑ c1, (x c1 + a c1) · wa c1 c2 + ba c2) 0 · wb c2 q + bb q   (`rowF`).
  The whole-array function `Stages.mlp` at row i and the kernel body's arithmetic on a block of 5000 rows at row r of
  the block are both this formula of the row they read: the first through the host's matrix product and its row
  broadcasts, the second through the kernel's matrix product into a zero accumulator, the changes of float format
  being the identity over the extended reals, and the bias a one-row array repeated down the block.
-/
import proofs.«167703_j16226386444396_1_alg».proof.Proof.Gen.KernelIdeal.Skeleton
import proofs.«167703_j16226386444396_1_alg».proof.Proof.Stages
import proofs.«167703_j16226386444396_1_alg».proof.Proof.LibPlainMatmul
import proofs.«167703_j16226386444396_1_alg».proof.Proof.LibHostDot
import Idealize.ShloMosaic.Lib.ValueIdx
import Idealize.ShloMosaic.Lib.Pipeline.Value

noncomputable section

namespace Cert.KernelIdeal.Region0
open Idealize.ShloMosaic Idealize.ShloMosaic.TcCoe Idealize.ShloMosaic.ValueIdx Idealize.SL.Sem Cert.KernelIdeal Cert.KernelIdeal.Gen
open scoped BigOperators

/-- Entry q of the perceptron's output row, from the two input rows (added entry by entry), the two weight matrices
    and the two bias vectors. -/
def rowF (xr ar : Fin 64 → EReal) (wa : S64x64.Idx → EReal) (ba : Fin 64 → EReal) (wb : S64x64.Idx → EReal)
    (bb : Fin 64 → EReal) (q : Fin 64) : EReal :=
  (∑ c2 : Fin 64, max ((∑ c1 : Fin 64, (xr c1 + ar c1) * wa (ix2 c1 c2)) + ba c2) (Ideal.ofBits .f32 0x00000000#32)
      * wb (ix2 c2 q)) + bb q

/-! ## The whole-array side -/

/-- A vector of 64 entries repeated down the rows reads, at (i, q), its entry q. -/
theorem rowB_apply (b : FVec Ideal S64 .f32) (i : Fin 100000) (q : Fin 64) :
    Cert.Stages.rowB b (ix2 i q) = b (ix1 q) := by
  unfold Cert.Stages.rowB
  refine (broadcastInDim_apply _ _ _ (ix2 i q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- The clamp at an index is the larger of the entry and zero. -/
theorem relu_apply (z : FVec Ideal S100000x64 .f32) (j : S100000x64.Idx) :
    Cert.Stages.relu z j = max (z j) (Ideal.ofBits .f32 0x00000000#32) := rfl

/-- The affine map at (i, q): row i of the operand against column q of the weights, plus entry q of the bias. -/
theorem lin_apply (h : FVec Ideal S100000x64 .f32) (w : FVec Ideal S64x64 .f32) (b : FVec Ideal S64 .f32)
    (i : Fin 100000) (q : Fin 64) :
    Cert.Stages.lin h w b (ix2 i q) = (∑ c : Fin 64, h (ix2 i c) * w (ix2 c q)) + b (ix1 q) := by
  unfold Cert.Stages.lin
  refine (addf_apply _ _ _).trans ?_
  refine congrArg₂ (· + ·) ?_ (rowB_apply b i q)
  exact Cert.LibHostDot.dotGeneral_plain _ _ _ _ i q

/-- The perceptron of the sum of two arrays, at (i, q), is `rowF` of their rows i. -/
theorem mlp_apply (X A : FVec Ideal S100000x64 .f32) (wa : FVec Ideal S64x64 .f32) (ba : FVec Ideal S64 .f32)
    (wb : FVec Ideal S64x64 .f32) (bb : FVec Ideal S64 .f32) (i : Fin 100000) (q : Fin 64) :
    Cert.Stages.mlp (addf X A) wa ba wb bb (ix2 i q)
      = rowF (fun c => X (ix2 i c)) (fun c => A (ix2 i c)) wa (fun c => ba (ix1 c)) wb (fun c => bb (ix1 c)) q := by
  unfold Cert.Stages.mlp rowF
  refine (lin_apply _ _ _ i q).trans ?_
  refine congrArg₂ (· + ·) ?_ rfl
  refine Finset.sum_congr rfl fun c2 _ => ?_
  refine congrArg₂ (· * ·) ?_ rfl
  refine (relu_apply _ _).trans ?_
  refine congrArg₂ max ?_ rfl
  exact lin_apply _ _ _ i c2

/-! ## The block side -/

/-- A one-row array repeated down a block of 5000 rows reads, at (r, q), its entry (0, q). -/
theorem rowBcast_apply (ra : Vec Ideal S1x64 .f32) (h1 : S1x64.ShapeCasts S1x64) (h2 : S1x64.Broadcasts S5000x64)
    (r : Fin 5000) (q : Fin 64) :
    broadcastTo S5000x64 (shapeCast S1x64 ra h1) h2 (ix2 r q) = ra (ix2 (0 : Fin 1) q) := by
  rw [shapeCast_self]
  refine broadcastTo_apply _ _ (ix2 r q) (ix2 (0 : Fin 1) q) fun a => ?_
  match a with
  | ⟨0, _⟩ => rfl
  | ⟨1, _⟩ => rfl

/-- The body's arithmetic on a block, at (r, q), is `rowF` of rows r of the two row blocks, the weight matrices, and
    row 0 of the two bias rows. -/
theorem pay0_apply (x0 x1 : Vec Ideal S5000x64 .f32) (wa : Vec Ideal S64x64 .f32) (ra : Vec Ideal S1x64 .f32)
    (wb : Vec Ideal S64x64 .f32) (rb : Vec Ideal S1x64 .f32) (r : Fin 5000) (q : Fin 64) :
    k0_pay1 (F := Ideal) x0 x1 wa ra wb rb (ix2 r q)
      = rowF (fun c => x0 (ix2 r c)) (fun c => x1 (ix2 r c)) wa (fun c => ra (ix2 (0 : Fin 1) c)) wb
          (fun c => rb (ix2 (0 : Fin 1) c)) q := by
  unfold k0_pay1 rowF
  dsimp only
  refine (addf_apply _ _ _).trans ?_
  refine congrArg₂ (· + ·) ?_ (rowBcast_apply rb _ _ r q)
  refine (Cert.LibPlainMatmul.matmul_zero_plain _ _ _ r q).trans ?_
  refine Finset.sum_congr rfl fun c2 _ => ?_
  refine congrArg₂ (· * ·) ?_ rfl
  refine (truncf_apply (ψ := .bf16) _ bitsLt_bf16_f32 _).trans ?_
  refine (maximumf_apply _ _ _).trans ?_
  refine congrArg₂ max ?_ rfl
  refine (addf_apply _ _ _).trans ?_
  refine congrArg₂ (· + ·) ?_ (rowBcast_apply ra _ _ r c2)
  refine (Cert.LibPlainMatmul.matmul_zero_plain _ _ _ r c2).trans ?_
  refine Finset.sum_congr rfl fun c1 _ => ?_
  refine congrArg₂ (· * ·) ?_ rfl
  refine (truncf_apply (ψ := .bf16) _ bitsLt_bf16_f32 _).trans ?_
  refine (addf_apply _ _ _).trans ?_
  refine congrArg₂ (· + ·) rfl ?_
  exact congrFun (shapeCast_self x1 _) _

end Cert.KernelIdeal.Region0

end
-- ==== Proof.Region0.lean ====
/-
  The first pipelined region writes, into its output array of 100000 × 64, the two-layer perceptron of the sum of its
  first two arrays, row by row.

  The grid has 20 points. At point t the two row windows hold rows 5000·t … 5000·t + 4999 of their arrays, the weight
  and bias windows hold the whole of their small arrays, and the body stores into the output window one block computed
  from these. An entry (r, q) of that block depends only on row r of the two row blocks, so it is the entry
  (5000·t + r, q) of the whole-array perceptron (`rowF` read on both sides). Every row i lies in the block of point
  i / 5000, so the blocks written back fill the array with the whole-array function.
-/
import proofs.«167703_j16226386444396_1_alg».proof.Proof.Gen.KernelIdeal.Frame
import proofs.«167703_j16226386444396_1_alg».proof.Proof.Region0Row
import Idealize.ShloMosaic.Lib.ValueIdx
import Idealize.ShloMosaic.Lib.Pipeline.Value

noncomputable section

namespace Cert.KernelIdeal.Region0
open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The zero offsets of a whole-block access, as a constant function. -/
theorem hz : (![0, 0] : Fin 2 → Nat) = fun _ => 0 := funext fun a => by fin_cases a <;> rfl

/-- The block indices at point t: the two row windows and the output are at block (t, 0); the weight and bias windows
    stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- \`rowF\` depends on its six operands only through their values. -/
theorem rowF_congr {xr xr' ar ar' : Fin 64 → EReal} {wa wa' : S64x64.Idx → EReal} {ba ba' : Fin 64 → EReal}
    {wb wb' : S64x64.Idx → EReal} {bb bb' : Fin 64 → EReal} (q : Fin 64)
    (h0 : ∀ c, xr c = xr' c) (h1 : ∀ c, ar c = ar' c) (h2 : ∀ j, wa j = wa' j) (h3 : ∀ c, ba c = ba' c)
    (h4 : ∀ j, wb j = wb' j) (h5 : ∀ c, bb c = bb' c) :
    rowF xr ar wa ba wb bb q = rowF xr' ar' wa' ba' wb' bb' q := by
  rw [funext h0, funext h1, funext h2, funext h3, funext h4, funext h5]

/-! ## Each window's block at a point, as entries of its array -/

/-- Row r of the first row window's block at point t is row 5000·t + r of its array. -/
theorem blk_rows_0 (t : Fin cfg0.N) (r : Fin 5000) (q : Fin 64) (i : Fin 100000) (hi : i.val = 5000 * t.val + r.val) :
    (iblk0 V c 0 t : Vec Ideal S5000x64 .f32) (ix2 r q) = (V c main_arg0 : S100000x64.Idx → EReal) (ix2 i q) := by
  obtain ⟨e0, e1, -⟩ := idx_facts t
  unfold iblk0
  rw [View.read_apply]
  show (V c main_arg0 : S100000x64.Idx → EReal) _ = _
  refine congrArg _ (funext fun a => Fin.ext ?_)
  match a with
  | ⟨0, _⟩ => show win0_0.index t (0 : Fin 2) * 5000 + 1 * r.val = i.val; omega
  | ⟨1, _⟩ => show win0_0.index t (1 : Fin 2) * 64 + 1 * q.val = q.val; omega

/-- The same for the second row window. -/
theorem blk_rows_1 (t : Fin cfg0.N) (r : Fin 5000) (q : Fin 64) (i : Fin 100000) (hi : i.val = 5000 * t.val + r.val) :
    (iblk0 V c 1 t : Vec Ideal S5000x64 .f32) (ix2 r q) = (V c main_v13 : S100000x64.Idx → EReal) (ix2 i q) := by
  obtain ⟨-, -, e0, e1, -⟩ := idx_facts t
  unfold iblk0
  rw [View.read_apply]
  show (V c main_v13 : S100000x64.Idx → EReal) _ = _
  refine congrArg _ (funext fun a => Fin.ext ?_)
  match a with
  | ⟨0, _⟩ => show win0_1.index t (0 : Fin 2) * 5000 + 1 * r.val = i.val; omega
  | ⟨1, _⟩ => show win0_1.index t (1 : Fin 2) * 64 + 1 * q.val = q.val; omega

/-- The first weight window's block is its whole array at every point. -/
theorem blk_w_2 (t : Fin cfg0.N) (j : S64x64.Idx) :
    (iblk0 V c 2 t : Vec Ideal S64x64 .f32) j = (V c main_arg2 : S64x64.Idx → EReal) j := by
  obtain ⟨-, -, -, -, e0, e1, -⟩ := idx_facts t
  unfold iblk0
  rw [View.read_apply]
  show (V c main_arg2 : S64x64.Idx → EReal) _ = _
  refine congrArg _ (funext fun a => Fin.ext ?_)
  match a with
  | ⟨0, _⟩ => show win0_2.index t (0 : Fin 2) * 64 + 1 * (j 0).val = (j 0).val; omega
  | ⟨1, _⟩ => show win0_2.index t (1 : Fin 2) * 64 + 1 * (j 1).val = (j 1).val; omega

/-- The first bias window's block is its whole one-row array at every point. -/
theorem blk_b_3 (t : Fin cfg0.N) (j : S1x64.Idx) :
    (iblk0 V c 3 t : Vec Ideal S1x64 .f32) j = (V c main_v14 : S1x64.Idx → EReal) j := by
  obtain ⟨-, -, -, -, -, -, e0, e1, -⟩ := idx_facts t
  unfold iblk0
  rw [View.read_apply]
  show (V c main_v14 : S1x64.Idx → EReal) _ = _
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 64 + 1 * (j 1).val = (j 1).val; omega

/-- The second weight window's block is its whole array at every point. -/
theorem blk_w_4 (t : Fin cfg0.N) (j : S64x64.Idx) :
    (iblk0 V c 4 t : Vec Ideal S64x64 .f32) j = (V c main_arg4 : S64x64.Idx → EReal) j := by
  obtain ⟨-, -, -, -, -, -, -, -, e0, e1, -⟩ := idx_facts t
  unfold iblk0
  rw [View.read_apply]
  show (V c main_arg4 : S64x64.Idx → EReal) _ = _
  refine congrArg _ (funext fun a => Fin.ext ?_)
  match a with
  | ⟨0, _⟩ => show win0_4.index t (0 : Fin 2) * 64 + 1 * (j 0).val = (j 0).val; omega
  | ⟨1, _⟩ => show win0_4.index t (1 : Fin 2) * 64 + 1 * (j 1).val = (j 1).val; omega

/-- The second bias window's block is its whole one-row array at every point. -/
theorem blk_b_5 (t : Fin cfg0.N) (j : S1x64.Idx) :
    (iblk0 V c 5 t : Vec Ideal S1x64 .f32) j = (V c main_v15 : S1x64.Idx → EReal) j := by
  obtain ⟨-, -, -, -, -, -, -, -, -, -, e0, e1, -⟩ := idx_facts t
  unfold iblk0
  rw [View.read_apply]
  show (V c main_v15 : S1x64.Idx → EReal) _ = _
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 64 + 1 * (j 1).val = (j 1).val; omega

/-! ## From the blocks to the array -/

/-- What point t writes back is block t of the whole-array perceptron: entry (r, q) of the stored block and entry
    (5000·t + r, q) of the whole-array function are the same \`rowF\` of the same rows. -/
theorem flushed_eq (ba bb : FVec Ideal S64 .f32)
    (hba : ∀ j : Fin 64, (V c main_v14 : S1x64.Idx → EReal) (ix2 (0 : Fin 1) j) = ba (ix1 j))
    (hbb : ∀ j : Fin 64, (V c main_v15 : S1x64.Idx → EReal) (ix2 (0 : Fin 1) j) = bb (ix1 j)) (t : Fin cfg0.N) :
    (dat0 (F := Ideal) V c).flushed 6 t = ((cfg0.win 6).blk t).view.read (Elt Ideal)
      (Cert.Stages.mlp (addf (V c main_arg0) (V c main_v13)) (V c main_arg2) ba (V c main_arg4) bb) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz, View.ld_unit_zero (S := S1x64) hz]
  refine funext fun (j : S5000x64.Idx) => ?_
  obtain ⟨r, q, rfl⟩ : ∃ (r : Fin 5000) (q : Fin 64), j = ix2 r q := ⟨j 0, j 1, eq_ix2 j⟩
  have hN : t.val < 20 := Nat.lt_of_lt_of_eq t.isLt N_0
  obtain ⟨i, hi⟩ : ∃ i : Fin 100000, i.val = 5000 * t.val + r.val := ⟨⟨5000 * t.val + r.val, by omega⟩, rfl⟩
  obtain ⟨-, -, -, -, -, -, -, -, -, -, -, -, e0, e1⟩ := idx_facts t
  have hemb : ((cfg0.win 6).blk t).view.emb (ix2 r q) = (ix2 i q : S100000x64.Idx) :=
    funext fun a => Fin.ext (by
      match a with
      | ⟨0, _⟩ => show win0_6.index t (0 : Fin 2) * 5000 + 1 * r.val = i.val; omega
      | ⟨1, _⟩ => show win0_6.index t (1 : Fin 2) * 64 + 1 * q.val = q.val; omega)
  show k0_pay1 (iblk0 V c 0 t) (iblk0 V c 1 t) (iblk0 V c 2 t) (iblk0 V c 3 t) (iblk0 V c 4 t) (iblk0 V c 5 t) (ix2 r q)
    = Cert.Stages.mlp (addf (V c main_arg0) (V c main_v13)) (V c main_arg2) ba (V c main_arg4) bb
        (((cfg0.win 6).blk t).view.emb (ix2 r q))
  rw [hemb]
  refine (pay0_apply (iblk0 V c 0 t) (iblk0 V c 1 t) (iblk0 V c 2 t) (iblk0 V c 3 t) (iblk0 V c 4 t) (iblk0 V c 5 t) r q).trans ?_
  refine Eq.trans ?_ (mlp_apply _ _ _ _ _ _ i q).symm
  exact rowF_congr q (fun cc => blk_rows_0 V c t r cc i hi) (fun cc => blk_rows_1 V c t r cc i hi)
    (fun j => blk_w_2 V c t j) (fun cc => (blk_b_3 V c t _).trans (hba cc))
    (fun j => blk_w_4 V c t j) (fun cc => (blk_b_5 V c t _).trans (hbb cc))

/-- An index is in the output's block at point t iff each coordinate is in the block's range on its axis. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v16).slice (win0_6.rect t)).set ↔ _
  rw [View.set_slice_whole, Rect.mem_set_unit]
  exact Iff.rfl

/-- Every index of the output array is in the block of the point that holds its row: point (row / 5000). -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- The output array after the region's last point is the whole-array perceptron of the sum of the first two arrays,
    the two bias rows read as the given vectors. -/
theorem final0 (ba bb : FVec Ideal S64 .f32)
    (hba : ∀ j : Fin 64, (V c main_v14 : S1x64.Idx → EReal) (ix2 (0 : Fin 1) j) = ba (ix1 j))
    (hbb : ∀ j : Fin 64, (V c main_v15 : S1x64.Idx → EReal) (ix2 (0 : Fin 1) j) = bb (ix1 j)) :
    (Gen.dat0 (F := Ideal) V c).arrAt 6 cfg0.N
      = Cert.Stages.mlp (addf (V c main_arg0) (V c main_v13)) (V c main_arg2) ba (V c main_arg4) bb :=
  (dat0 V c).arrAt_eq_of_cover 6 _ (fun t _ => flushed_eq V c ba bb hba hbb t) cover

end Cert.KernelIdeal.Region0

end
-- ==== Proof.Region1Row.lean ====
/-
  One entry of the column-wise normalisation, read two ways.

  For an entry h of a column with mean m, variance v, scale g and shift b, the normalised entry is
  (h − m) · (v + ε)^(−1/2) · g + b   (`pointF`; ε the small constant both programs add to the variance).
  The whole-array function `Stages.bn` at (i, q) and the kernel body's arithmetic on a block of 5000 rows at (r, q) are
  both this formula of the entry they read and of entry q of the four vectors: the first through row broadcasts of the
  vectors, the second through one-row arrays repeated down the block; the reciprocal square root is the same function
  of the extended reals on both sides.
-/
import proofs.«167703_j16226386444396_1_alg».proof.Proof.Gen.KernelIdeal.Skeleton
import proofs.«167703_j16226386444396_1_alg».proof.Proof.Stages
import proofs.«167703_j16226386444396_1_alg».proof.Proof.Region0Row
import Idealize.ShloMosaic.Lib.ValueIdx
import Idealize.ShloMosaic.Lib.Pipeline.Value

noncomputable section

namespace Cert.KernelIdeal.Region1
open Idealize.ShloMosaic Idealize.ShloMosaic.TcCoe Idealize.ShloMosaic.ValueIdx Idealize.SL.Sem Cert.KernelIdeal Cert.KernelIdeal.Gen
open Cert.KernelIdeal.Region0 (rowB_apply)

/-- The normalised entry from the entry, its column's mean and variance, and the scale and shift. -/
def pointF (h m v g b : EReal) : EReal :=
  ((h - m) * Ideal.rsqrt (v + Ideal.ofBits .f32 0x3727C5AC#32)) * g + b

/-- \`pointF\` depends on its five operands only through their values. -/
theorem pointF_congr {h h' m m' v v' g g' b b' : EReal} (e0 : h = h') (e1 : m = m') (e2 : v = v') (e3 : g = g')
    (e4 : b = b') : pointF h m v g b = pointF h' m' v' g' b' := by
  rw [e0, e1, e2, e3, e4]

/-- The whole-array normalisation at (i, q) is \`pointF\` of the entry and of entry q of the four vectors. -/
theorem bn_apply (h : FVec Ideal S100000x64 .f32) (mean var g b : FVec Ideal S64 .f32) (i : Fin 100000) (q : Fin 64) :
    Cert.Stages.bn h mean var g b (ix2 i q)
      = pointF (h (ix2 i q)) (mean (ix1 q)) (var (ix1 q)) (g (ix1 q)) (b (ix1 q)) := by
  unfold Cert.Stages.bn pointF
  dsimp only
  refine (addf_apply _ _ _).trans ?_
  refine congrArg₂ (· + ·) ?_ (rowB_apply b i q)
  refine (mulf_apply _ _ _).trans ?_
  refine congrArg₂ (· * ·) ?_ (rowB_apply g i q)
  refine (mulf_apply _ _ _).trans ?_
  refine congrArg₂ (· * ·) ?_ ?_
  · refine (subf_apply _ _ _).trans ?_
    exact congrArg₂ (· - ·) rfl (rowB_apply mean i q)
  · exact (rowB_apply _ i q).trans rfl

/-- A one-row array repeated down a block of 5000 rows reads, at (r, q), its entry (0, q). -/
theorem rowBcast_apply (y : Vec Ideal S1x64 .f32) (h2 : S1x64.Broadcasts S5000x64) (r : Fin 5000) (q : Fin 64) :
    broadcastTo S5000x64 y h2 (ix2 r q) = y (ix2 (0 : Fin 1) q) := by
  refine broadcastTo_apply _ _ (ix2 r q) (ix2 (0 : Fin 1) q) fun a => ?_
  match a with
  | ⟨0, _⟩ => rfl
  | ⟨1, _⟩ => rfl

/-- The body's arithmetic on a block, at (r, q), is \`pointF\` of the block's entry and of entry (0, q) of the mean,
    variance, scale and shift rows. -/
theorem pay1_apply (x0 : Vec Ideal S5000x64 .f32) (rv rm rg rb : Vec Ideal S1x64 .f32) (r : Fin 5000) (q : Fin 64) :
    k1_pay1 (F := Ideal) x0 rv rm rg rb (ix2 r q)
      = pointF (x0 (ix2 r q)) (rm (ix2 (0 : Fin 1) q)) (rv (ix2 (0 : Fin 1) q)) (rg (ix2 (0 : Fin 1) q))
          (rb (ix2 (0 : Fin 1) q)) := by
  unfold k1_pay1 pointF
  simp only [shapeCast_self]
  refine (addf_apply _ _ _).trans ?_
  refine congrArg₂ (· + ·) ?_ (rowBcast_apply rb _ r q)
  refine (mulf_apply _ _ _).trans ?_
  refine congrArg₂ (· * ·) ?_ (rowBcast_apply rg _ r q)
  refine (mulf_apply _ _ _).trans ?_
  refine congrArg₂ (· * ·) ?_ ?_
  · refine (subf_apply _ _ _).trans ?_
    exact congrArg₂ (· - ·) rfl (rowBcast_apply rm _ r q)
  · exact (rowBcast_apply _ _ r q).trans rfl

end Cert.KernelIdeal.Region1

end
-- ==== Proof.Region1.lean ====
/-
  The second pipelined region writes, into its output array of 100000 × 64, the column-wise normalisation of its first
  array by the mean, variance, scale and shift it is given as one-row arrays.

  The grid has 20 points. At point t the row window holds rows 5000·t … 5000·t + 4999 of its array, the four one-row
  windows hold the whole of their arrays, and the body stores into the output window one block computed entry by entry
  from these (`pointF` read on both sides): entry (r, q) of the block is entry (5000·t + r, q) of the whole-array
  function. Every row i lies in the block of point i / 5000, so the blocks written back fill the array with it.
-/
import proofs.«167703_j16226386444396_1_alg».proof.Proof.Gen.KernelIdeal.Frame
import proofs.«167703_j16226386444396_1_alg».proof.Proof.Region1Row
import Idealize.ShloMosaic.Lib.ValueIdx
import Idealize.ShloMosaic.Lib.Pipeline.Value

noncomputable section

namespace Cert.KernelIdeal.Region1
open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The zero offsets of a whole-block access, as a constant function. -/
theorem hz : (![0, 0] : Fin 2 → Nat) = fun _ => 0 := funext fun a => by fin_cases a <;> rfl

/-- The block indices at point t: the row window and the output are at block (t, 0); the four one-row windows stay at
    block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each window's block at a point, as entries of its array -/

/-- Row r of the row window's block at point t is row 5000·t + r of its array. -/
theorem blk_rows_0 (t : Fin cfg1.N) (r : Fin 5000) (q : Fin 64) (i : Fin 100000) (hi : i.val = 5000 * t.val + r.val) :
    (iblk1 V c 0 t : Vec Ideal S5000x64 .f32) (ix2 r q) = (V c main_v16 : S100000x64.Idx → EReal) (ix2 i q) := by
  have e := idx_facts t
  unfold iblk1
  rw [View.read_apply]
  show (V c main_v16 : S100000x64.Idx → EReal) _ = _
  refine congrArg _ (funext fun a => Fin.ext ?_)
  match a with
  | ⟨0, _⟩ => show win1_0.index t (0 : Fin 2) * 5000 + 1 * r.val = i.val; omega
  | ⟨1, _⟩ => show win1_0.index t (1 : Fin 2) * 64 + 1 * q.val = q.val; omega

/-- The mean window's block is its whole one-row array at every point. -/
theorem blk_b_1 (t : Fin cfg1.N) (j : S1x64.Idx) :
    (iblk1 V c 1 t : Vec Ideal S1x64 .f32) j = (V c main_v21 : S1x64.Idx → EReal) j := by
  have e := idx_facts t
  unfold iblk1
  rw [View.read_apply]
  show (V c main_v21 : S1x64.Idx → EReal) _ = _
  refine congrArg _ (funext fun a => Fin.ext ?_)
  match a with
  | ⟨0, _⟩ => show win1_1.index t (0 : Fin 2) * 1 + 1 * (j 0).val = (j 0).val; omega
  | ⟨1, _⟩ => show win1_1.index t (1 : Fin 2) * 64 + 1 * (j 1).val = (j 1).val; omega

/-- The variance window's block is its whole one-row array at every point. -/
theorem blk_b_2 (t : Fin cfg1.N) (j : S1x64.Idx) :
    (iblk1 V c 2 t : Vec Ideal S1x64 .f32) j = (V c main_v22 : S1x64.Idx → EReal) j := by
  have e := idx_facts t
  unfold iblk1
  rw [View.read_apply]
  show (V c main_v22 : S1x64.Idx → EReal) _ = _
  refine congrArg _ (funext fun a => Fin.ext ?_)
  match a with
  | ⟨0, _⟩ => show win1_2.index t (0 : Fin 2) * 1 + 1 * (j 0).val = (j 0).val; omega
  | ⟨1, _⟩ => show win1_2.index t (1 : Fin 2) * 64 + 1 * (j 1).val = (j 1).val; omega

/-- The scale window's block is its whole one-row array at every point. -/
theorem blk_b_3 (t : Fin cfg1.N) (j : S1x64.Idx) :
    (iblk1 V c 3 t : Vec Ideal S1x64 .f32) j = (V c main_v23 : S1x64.Idx → EReal) j := by
  have e := idx_facts t
  unfold iblk1
  rw [View.read_apply]
  show (V c main_v23 : S1x64.Idx → EReal) _ = _
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 64 + 1 * (j 1).val = (j 1).val; omega

/-- The shift window's block is its whole one-row array at every point. -/
theorem blk_b_4 (t : Fin cfg1.N) (j : S1x64.Idx) :
    (iblk1 V c 4 t : Vec Ideal S1x64 .f32) j = (V c main_v24 : S1x64.Idx → EReal) j := by
  have e := idx_facts t
  unfold iblk1
  rw [View.read_apply]
  show (V c main_v24 : S1x64.Idx → EReal) _ = _
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 64 + 1 * (j 1).val = (j 1).val; omega

/-! ## From the blocks to the array -/

/-- What point t writes back is block t of the whole-array normalisation: entry (r, q) of the stored block and entry
    (5000·t + r, q) of the whole-array function are the same `pointF` of the same five numbers. -/
theorem flushed_eq (mean var g b : FVec Ideal S64 .f32)
    (hm : ∀ j : Fin 64, (V c main_v21 : S1x64.Idx → EReal) (ix2 (0 : Fin 1) j) = mean (ix1 j))
    (hv : ∀ j : Fin 64, (V c main_v22 : S1x64.Idx → EReal) (ix2 (0 : Fin 1) j) = var (ix1 j))
    (hg : ∀ j : Fin 64, (V c main_v23 : S1x64.Idx → EReal) (ix2 (0 : Fin 1) j) = g (ix1 j))
    (hb : ∀ j : Fin 64, (V c main_v24 : S1x64.Idx → EReal) (ix2 (0 : Fin 1) j) = b (ix1 j)) (t : Fin cfg1.N) :
    (dat1 (F := Ideal) V c).flushed 5 t = ((cfg1.win 5).blk t).view.read (Elt Ideal)
      (Cert.Stages.bn (V c main_v16) mean var g b) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz]
  refine funext fun (j : S5000x64.Idx) => ?_
  obtain ⟨r, q, rfl⟩ : ∃ (r : Fin 5000) (q : Fin 64), j = ix2 r q := ⟨j 0, j 1, eq_ix2 j⟩
  have hN : t.val < 20 := Nat.lt_of_lt_of_eq t.isLt N_1
  obtain ⟨i, hi⟩ : ∃ i : Fin 100000, i.val = 5000 * t.val + r.val := ⟨⟨5000 * t.val + r.val, by omega⟩, rfl⟩
  have e := idx_facts t
  have hemb : ((cfg1.win 5).blk t).view.emb (ix2 r q) = (ix2 i q : S100000x64.Idx) :=
    funext fun a => Fin.ext (by
      match a with
      | ⟨0, _⟩ => show win1_5.index t (0 : Fin 2) * 5000 + 1 * r.val = i.val; omega
      | ⟨1, _⟩ => show win1_5.index t (1 : Fin 2) * 64 + 1 * q.val = q.val; omega)
  show k1_pay1 (iblk1 V c 0 t) (iblk1 V c 2 t) (iblk1 V c 1 t) (iblk1 V c 3 t) (iblk1 V c 4 t) (ix2 r q)
    = Cert.Stages.bn (V c main_v16) mean var g b (((cfg1.win 5).blk t).view.emb (ix2 r q))
  rw [hemb]
  refine (pay1_apply (iblk1 V c 0 t) (iblk1 V c 2 t) (iblk1 V c 1 t) (iblk1 V c 3 t) (iblk1 V c 4 t) r q).trans ?_
  refine Eq.trans ?_ (bn_apply _ _ _ _ _ i q).symm
  exact pointF_congr (blk_rows_0 V c t r q i hi) ((blk_b_1 V c t _).trans (hm q)) ((blk_b_2 V c t _).trans (hv q))
    ((blk_b_3 V c t _).trans (hg q)) ((blk_b_4 V c t _).trans (hb q))

/-- An index is in the output's block at point t iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v25).slice (win1_5.rect t)).set ↔ _
  rw [View.set_slice_whole, Rect.mem_set_unit]
  exact Iff.rfl

/-- Every index of the output array is in the block of the point that holds its row: point (row / 5000). -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (by omega : (i 0).val / 5000 < 20) N_1.symm⟩, rfl⟩
  have e := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The output array after the region's last point is the whole-array normalisation of the region's first array by the
    given mean, variance, scale and shift vectors, the four one-row arrays read as those vectors. -/
theorem final1 (mean var g b : FVec Ideal S64 .f32)
    (hm : ∀ j : Fin 64, (V c main_v21 : S1x64.Idx → EReal) (ix2 (0 : Fin 1) j) = mean (ix1 j))
    (hv : ∀ j : Fin 64, (V c main_v22 : S1x64.Idx → EReal) (ix2 (0 : Fin 1) j) = var (ix1 j))
    (hg : ∀ j : Fin 64, (V c main_v23 : S1x64.Idx → EReal) (ix2 (0 : Fin 1) j) = g (ix1 j))
    (hb : ∀ j : Fin 64, (V c main_v24 : S1x64.Idx → EReal) (ix2 (0 : Fin 1) j) = b (ix1 j)) :
    (Gen.dat1 (F := Ideal) V c).arrAt 5 cfg1.N = Cert.Stages.bn (V c main_v16) mean var g b :=
  (dat1 V c).arrAt_eq_of_cover 5 _ (fun t _ => flushed_eq V c mean var g b hm hv hg hb t) cover

end Cert.KernelIdeal.Region1

end
-- ==== Proof.Region2Idx.lean ====
/-
  A row of the second layer and the projection, read at coordinates, over the extended reals.

  For one node the layer takes the node's own feature row x and the aggregate row a of its neighbours and computes
  three affine maps in a row: (x + a) · wa + ba, clamped at zero from below; that times wb plus bb; that times lw plus
  lb (ten columns). `rowOut` is this value as an explicit formula with finite sums over the 64 features. Both the
  whole-array spelling (host products over all 100000 rows) and a block's spelling (products of 5000 rows into a zero
  accumulator, with format changes that are the identity here) read, at (row, column), as `rowOut` of the row's data.
-/
import proofs.«167703_j16226386444396_1_alg».proof.Proof.Gen.KernelIdeal.Skeleton
import proofs.«167703_j16226386444396_1_alg».proof.Proof.Stages
import proofs.«167703_j16226386444396_1_alg».proof.Proof.LibPlainMatmul
import proofs.«167703_j16226386444396_1_alg».proof.Proof.LibHostDot
import Idealize.ShloMosaic.Lib.ValueIdx
import Idealize.ShloMosaic.Lib.ValueLayout
import Idealize.ShloMosaic.Lib.Pipeline.Value

noncomputable section

namespace Cert.KernelIdeal.Region2

open Idealize.ShloMosaic Idealize.ShloMosaic.ValueIdx Cert.KernelIdeal Cert.KernelIdeal.Gen
open Cert.LibPlainMatmul Cert.LibHostDot
open scoped BigOperators

/-- One node's output row at column q: from the node's row x, its aggregate row a, the two 64 × 64 weights with their
    biases and the 64 × 10 projection with its bias. -/
def rowOut (x a : Fin 64 → EReal) (wa : Fin 64 → Fin 64 → EReal) (ba : Fin 64 → EReal)
    (wb : Fin 64 → Fin 64 → EReal) (bb : Fin 64 → EReal) (lw : Fin 64 → Fin 10 → EReal) (lb : Fin 10 → EReal)
    (q : Fin 10) : EReal :=
  (∑ k2 : Fin 64,
      ((∑ k1 : Fin 64,
          max ((∑ k0 : Fin 64, (x k0 + a k0) * wa k0 k1) + ba k1) (Ideal.ofBits .f32 0x00000000#32) * wb k1 k2)
        + bb k2) * lw k2 q)
    + lb q

/-! ## The whole-array spelling -/

/-- A vector of 64 entries repeated down the rows reads, at (i, c), its entry c. -/
theorem rowB_apply (b : FVec Ideal S64 .f32) (i : Fin 100000) (c : Fin 64) :
    Cert.Stages.rowB b (ix2 i c) = b (ix1 c) := by
  unfold Cert.Stages.rowB
  refine (broadcastInDim_apply _ _ _ (ix2 i c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

/-- An affine map of the rows at (i, c): row i of the operand times column c of the weight, plus the bias at c. -/
theorem lin_apply (h : FVec Ideal S100000x64 .f32) (w : FVec Ideal S64x64 .f32) (b : FVec Ideal S64 .f32)
    (i : Fin 100000) (c : Fin 64) :
    Cert.Stages.lin h w b (ix2 i c) = (∑ k : Fin 64, h (ix2 i k) * w (ix2 k c)) + b (ix1 c) := by
  unfold Cert.Stages.lin
  rw [addf_apply, rowB_apply]
  refine congrArg (· + b (ix1 c)) ?_
  exact dotGeneral_plain _ _ _ _ i c

/-- The clamp at (i, c). -/
theorem relu_apply (z : FVec Ideal S100000x64 .f32) (i : Fin 100000) (c : Fin 64) :
    Cert.Stages.relu z (ix2 i c) = max (z (ix2 i c)) (Ideal.ofBits .f32 0x00000000#32) := by
  unfold Cert.Stages.relu
  rw [maximumf_apply]
  refine congrArg (max (z (ix2 i c))) ?_
  exact (broadcastInDim_apply _ _ _ (ix2 i c) ix0 fun a => a.elim0).trans rfl

/-- The projection to ten columns at (i, q). -/
theorem head_apply (h : FVec Ideal S100000x64 .f32) (w : FVec Ideal S64x10 .f32) (b : FVec Ideal S10 .f32)
    (i : Fin 100000) (q : Fin 10) :
    Cert.Stages.head h w b (ix2 i q) = (∑ k : Fin 64, h (ix2 i k) * w (ix2 k q)) + b (ix1 q) := by
  unfold Cert.Stages.head
  rw [addf_apply]
  refine congrArg₂ (· + ·) (dotGeneral_plain _ _ _ _ i q) ?_
  refine (broadcastInDim_apply _ _ _ (ix2 i q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The whole-array layer and projection at (i, q) is `rowOut` of row i of the two operands. -/
theorem stages_apply (x a : FVec Ideal S100000x64 .f32) (wa : FVec Ideal S64x64 .f32) (ba : FVec Ideal S64 .f32)
    (wb : FVec Ideal S64x64 .f32) (bb : FVec Ideal S64 .f32) (lw : FVec Ideal S64x10 .f32) (lb : FVec Ideal S10 .f32)
    (i : Fin 100000) (q : Fin 10) :
    Cert.Stages.head (Cert.Stages.mlp (addf x a) wa ba wb bb) lw lb (ix2 i q)
      = rowOut (fun k => x (ix2 i k)) (fun k => a (ix2 i k)) (fun k c => wa (ix2 k c)) (fun c => ba (ix1 c))
          (fun k c => wb (ix2 k c)) (fun c => bb (ix1 c)) (fun k c => lw (ix2 k c)) (fun c => lb (ix1 c)) q := by
  rw [head_apply]
  unfold rowOut Cert.Stages.mlp
  refine congrArg (· + lb (ix1 q)) (Finset.sum_congr rfl fun k2 _ => congrArg (· * lw (ix2 k2 q)) ?_)
  rw [lin_apply]
  refine congrArg (· + bb (ix1 k2)) (Finset.sum_congr rfl fun k1 _ => congrArg (· * wb (ix2 k1 k2)) ?_)
  rw [relu_apply, lin_apply]
  refine congrArg (max · (Ideal.ofBits .f32 0x00000000#32)) ?_
  refine congrArg (· + ba (ix1 k1)) (Finset.sum_congr rfl fun k0 _ => congrArg (· * wa (ix2 k0 k1)) ?_)
  exact addf_apply x a (ix2 i k0)

/-! ## A block's spelling -/

/-- One affine layer of a block at (r, c): a product of n rows by a 64 × m weight into the zero accumulator, both
    operands through a format change that is the identity here, plus a one-row bias spread down the rows. -/
theorem klin_apply {n m : Nat}
    (wf : DotDims.WF (⟨2, ![n, 64]⟩ : Shape) ⟨2, ![64, m]⟩ ⟨2, ![n, m]⟩ [1] [0] [0] [1] [] [])
    (u : FVec Ideal ⟨2, ![n, 64]⟩ .f32) (w : FVec Ideal ⟨2, ![64, m]⟩ .f32) (b : FVec Ideal ⟨2, ![1, m]⟩ .f32)
    (hc : (⟨2, ![1, m]⟩ : Shape).ShapeCasts ⟨2, ![1, m]⟩) (hb : (⟨2, ![1, m]⟩ : Shape).Broadcasts ⟨2, ![n, m]⟩)
    (r : Fin n) (c : Fin m) :
    addf (matmul (plainDims wf) none (truncf .bf16 u bitsLt_bf16_f32) (truncf .bf16 w bitsLt_bf16_f32)
        (constant (F := Ideal) ⟨2, ![n, m]⟩ .f32 0x00000000#32))
      (broadcastTo ⟨2, ![n, m]⟩ (shapeCast ⟨2, ![1, m]⟩ b hc) hb) (ix2 r c)
      = (∑ k : Fin 64, u (ix2 r k) * w (ix2 k c)) + b (ix2 (0 : Fin 1) c) := by
  rw [addf_apply, shapeCast_self, broadcastTo_1b_ab_apply]
  refine congrArg (· + b (ix2 (0 : Fin 1) c)) ?_
  exact matmul_zero_plain wf (truncf .bf16 u bitsLt_bf16_f32) (truncf .bf16 w bitsLt_bf16_f32) r c

/-- What a block stores, at (r, q), is `rowOut` of row r of its two row operands, the weights as loaded and the
    biases' one row. -/
theorem pay_apply (v0 v2 : Vec Ideal S5000x64 .f32) (v6 : Vec Ideal S64x64 .f32) (v9 : Vec Ideal S1x64 .f32)
    (v16 : Vec Ideal S64x64 .f32) (v19 : Vec Ideal S1x64 .f32) (v24 : Vec Ideal S64x10 .f32) (v27 : Vec Ideal S1x10 .f32)
    (r : Fin 5000) (q : Fin 10) :
    k2_pay1 (F := Ideal) v0 v2 v6 v9 v16 v19 v24 v27 (ix2 r q)
      = rowOut (fun k => v0 (ix2 r k)) (fun k => v2 (ix2 r k)) (fun k c => v6 (ix2 k c)) (fun c => v9 (ix2 (0 : Fin 1) c))
          (fun k c => v16 (ix2 k c)) (fun c => v19 (ix2 (0 : Fin 1) c)) (fun k c => v24 (ix2 k c))
          (fun c => v27 (ix2 (0 : Fin 1) c)) q := by
  unfold k2_pay1 rowOut
  refine (klin_apply _ _ _ _ _ _ r q).trans ?_
  refine congrArg (· + v27 (ix2 (0 : Fin 1) q)) (Finset.sum_congr rfl fun k2 _ => congrArg (· * v24 (ix2 k2 q)) ?_)
  refine (klin_apply _ _ _ _ _ _ r k2).trans ?_
  refine congrArg (· + v19 (ix2 (0 : Fin 1) k2)) (Finset.sum_congr rfl fun k1 _ => congrArg (· * v16 (ix2 k1 k2)) ?_)
  refine (maximumf_apply _ _ (ix2 r k1)).trans ?_
  refine congrArg₂ max ?_ rfl
  refine (klin_apply _ _ _ _ _ _ r k1).trans ?_
  refine congrArg (· + v9 (ix2 (0 : Fin 1) k1)) (Finset.sum_congr rfl fun k0 _ => congrArg (· * v6 (ix2 k0 k1)) ?_)
  rw [addf_apply, shapeCast_self, shapeCast_self]

end Cert.KernelIdeal.Region2

end
-- ==== Proof.Region2.lean ====
/-
  The second layer with the projection, from blocks to the whole array.

  The grid has 20 points; point t works on rows 5000·t … 5000·t + 4999 of the two row operands (the normalised
  features and their aggregate) and writes rows 5000·t … 5000·t + 4999 of the 100000 × 10 result; the weights and the
  one-row biases are the same whole small arrays at every point. What point t writes back, at (r, q) of its block, is
  `rowOut` of row r of its two row blocks, that is of row 5000·t + r of the arrays; the whole-array layer and
  projection at (5000·t + r, q) is the same `rowOut`. The 20 blocks cover every row (row i is in block i / 5000), so
  the result array ends holding the whole-array function.
-/
import proofs.«167703_j16226386444396_1_alg».proof.Proof.Gen.KernelIdeal.Frame
import proofs.«167703_j16226386444396_1_alg».proof.Proof.Stages
import proofs.«167703_j16226386444396_1_alg».proof.Proof.Region2Idx
import Idealize.ShloMosaic.Lib.ValueIdx
import Idealize.ShloMosaic.Lib.Pipeline.Value

noncomputable section

namespace Cert.KernelIdeal.Region2
open Idealize.ShloMosaic Idealize.ShloMosaic.TcCoe Idealize.ShloMosaic.ValueIdx Idealize.SL.Sem Cert.KernelIdeal Cert.KernelIdeal.Gen

theorem hz : (![0, 0] : Fin 2 → Nat) = fun _ => 0 := funext fun a => by fin_cases a <;> rfl

/-- `rowOut` depends on its data entry by entry. -/
theorem rowOut_congr {x x' a a' : Fin 64 → EReal} {wa wa' : Fin 64 → Fin 64 → EReal} {ba ba' : Fin 64 → EReal}
    {wb wb' : Fin 64 → Fin 64 → EReal} {bb bb' : Fin 64 → EReal} {lw lw' : Fin 64 → Fin 10 → EReal}
    {lb lb' : Fin 10 → EReal} (q : Fin 10)
    (h0 : ∀ k, x k = x' k) (h1 : ∀ k, a k = a' k) (h2 : ∀ k c, wa k c = wa' k c) (h3 : ∀ c, ba c = ba' c)
    (h4 : ∀ k c, wb k c = wb' k c) (h5 : ∀ c, bb c = bb' c) (h6 : ∀ k c, lw k c = lw' k c) (h7 : ∀ c, lb c = lb' c) :
    rowOut x a wa ba wb bb lw lb q = rowOut x' a' wa' ba' wb' bb' lw' lb' q := by
  obtain rfl : x = x' := funext h0
  obtain rfl : a = a' := funext h1
  obtain rfl : wa = wa' := funext fun k => funext (h2 k)
  obtain rfl : ba = ba' := funext h3
  obtain rfl : wb = wb' := funext fun k => funext (h4 k)
  obtain rfl : bb = bb' := funext h5
  obtain rfl : lw = lw' := funext fun k => funext (h6 k)
  obtain rfl : lb = lb' := funext h7
  rfl

/-- The index maps, decided over the grid: the two row operands and the result move with the point along the rows,
    every other window stays at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

section Blocks
variable (V : (c : Dev nD) → (b : Ref sig .tc) → Buf (Elt Ideal) ((c : Thread nD τ).loc b)) (c : Dev nD)

/-- Row r of the first row operand's block at point t is row 5000·t + r of the array. -/
theorem blk0_apply (t : Fin cfg2.N) (r : Fin 5000) (k : Fin 64) (i : Fin 100000) (hi : i.val = 5000 * t.val + r.val) :
    (iblk2 V c 0 t : Vec Ideal S5000x64 .f32) (ix2 r k) = (V c main_v25 : S100000x64.Idx → EReal) (ix2 i k) := by
  unfold iblk2
  rw [View.read_apply]
  show V c main_v25 _ = V c main_v25 _
  refine congrArg (V c main_v25) (funext fun a => Fin.ext ?_)
  match a with
  | ⟨0, _⟩ => show win2_0.index t (0 : Fin 2) * 5000 + 1 * r.val = i.val; rw [(idx_facts t).1, hi]; omega
  | ⟨1, _⟩ => show win2_0.index t (1 : Fin 2) * 64 + 1 * k.val = k.val; rw [(idx_facts t).2.1]; omega

/-- Row r of the second row operand's block at point t is row 5000·t + r of the array. -/
theorem blk1_apply (t : Fin cfg2.N) (r : Fin 5000) (k : Fin 64) (i : Fin 100000) (hi : i.val = 5000 * t.val + r.val) :
    (iblk2 V c 1 t : Vec Ideal S5000x64 .f32) (ix2 r k) = (V c main_v35 : S100000x64.Idx → EReal) (ix2 i k) := by
  unfold iblk2
  rw [View.read_apply]
  show V c main_v35 _ = V c main_v35 _
  refine congrArg (V c main_v35) (funext fun a => Fin.ext ?_)
  match a with
  | ⟨0, _⟩ => show win2_1.index t (0 : Fin 2) * 5000 + 1 * r.val = i.val; rw [(idx_facts t).2.2.1, hi]; omega
  | ⟨1, _⟩ => show win2_1.index t (1 : Fin 2) * 64 + 1 * k.val = k.val; rw [(idx_facts t).2.2.2.1]; omega

/-- The first weight's block is the whole weight at every point. -/
theorem blk2_apply (t : Fin cfg2.N) (k : Fin 64) (j : Fin 64) :
    (iblk2 V c 2 t : Vec Ideal S64x64 .f32) (ix2 k j) = (V c main_arg8 : S64x64.Idx → EReal) (ix2 k j) := by
  unfold iblk2
  rw [View.read_apply]
  show V c main_arg8 _ = V c main_arg8 _
  refine congrArg (V c main_arg8) (funext fun a => Fin.ext ?_)
  obtain ⟨-, -, -, -, e0, e1, -⟩ := idx_facts t
  match a with
  | ⟨0, _⟩ => show win2_2.index t (0 : Fin 2) * 64 + 1 * k.val = k.val; rw [e0]; omega
  | ⟨1, _⟩ => show win2_2.index t (1 : Fin 2) * 64 + 1 * j.val = j.val; rw [e1]; omega

/-- The first bias row's block is the whole row at every point. -/
theorem blk3_apply (t : Fin cfg2.N) (z : Fin 1) (j : Fin 64) :
    (iblk2 V c 3 t : Vec Ideal S1x64 .f32) (ix2 z j) = (V c main_v36 : S1x64.Idx → EReal) (ix2 z j) := by
  unfold iblk2
  rw [View.read_apply]
  show V c main_v36 _ = V c main_v36 _
  refine congrArg (V c main_v36) (funext fun a => Fin.ext ?_)
  obtain ⟨-, -, -, -, -, -, e0, e1, -⟩ := idx_facts t
  match a with
  | ⟨0, _⟩ => show win2_3.index t (0 : Fin 2) * 1 + 1 * z.val = z.val; rw [e0]; omega
  | ⟨1, _⟩ => show win2_3.index t (1 : Fin 2) * 64 + 1 * j.val = j.val; rw [e1]; omega

/-- The second weight's block is the whole weight at every point. -/
theorem blk4_apply (t : Fin cfg2.N) (k : Fin 64) (j : Fin 64) :
    (iblk2 V c 4 t : Vec Ideal S64x64 .f32) (ix2 k j) = (V c main_arg10 : S64x64.Idx → EReal) (ix2 k j) := by
  unfold iblk2
  rw [View.read_apply]
  show V c main_arg10 _ = V c main_arg10 _
  refine congrArg (V c main_arg10) (funext fun a => Fin.ext ?_)
  obtain ⟨-, -, -, -, -, -, -, -, e0, e1, -⟩ := idx_facts t
  match a with
  | ⟨0, _⟩ => show win2_4.index t (0 : Fin 2) * 64 + 1 * k.val = k.val; rw [e0]; omega
  | ⟨1, _⟩ => show win2_4.index t (1 : Fin 2) * 64 + 1 * j.val = j.val; rw [e1]; omega

/-- The second bias row's block is the whole row at every point. -/
theorem blk5_apply (t : Fin cfg2.N) (z : Fin 1) (j : Fin 64) :
    (iblk2 V c 5 t : Vec Ideal S1x64 .f32) (ix2 z j) = (V c main_v37 : S1x64.Idx → EReal) (ix2 z j) := by
  unfold iblk2
  rw [View.read_apply]
  show V c main_v37 _ = V c main_v37 _
  refine congrArg (V c main_v37) (funext fun a => Fin.ext ?_)
  obtain ⟨-, -, -, -, -, -, -, -, -, -, e0, e1, -⟩ := idx_facts t
  match a with
  | ⟨0, _⟩ => show win2_5.index t (0 : Fin 2) * 1 + 1 * z.val = z.val; rw [e0]; omega
  | ⟨1, _⟩ => show win2_5.index t (1 : Fin 2) * 64 + 1 * j.val = j.val; rw [e1]; omega

/-- The projection's block is the whole 64 × 10 weight at every point. -/
theorem blk6_apply (t : Fin cfg2.N) (k : Fin 64) (j : Fin 10) :
    (iblk2 V c 6 t : Vec Ideal S64x10 .f32) (ix2 k j) = (V c main_arg12 : S64x10.Idx → EReal) (ix2 k j) := by
  unfold iblk2
  rw [View.read_apply]
  show V c main_arg12 _ = V c main_arg12 _
  refine congrArg (V c main_arg12) (funext fun a => Fin.ext ?_)
  obtain ⟨-, -, -, -, -, -, -, -, -, -, -, -, e0, e1, -⟩ := idx_facts t
  match a with
  | ⟨0, _⟩ => show win2_6.index t (0 : Fin 2) * 64 + 1 * k.val = k.val; rw [e0]; omega
  | ⟨1, _⟩ => show win2_6.index t (1 : Fin 2) * 10 + 1 * j.val = j.val; rw [e1]; omega

/-- The projection's bias row's block is the whole row at every point. -/
theorem blk7_apply (t : Fin cfg2.N) (z : Fin 1) (j : Fin 10) :
    (iblk2 V c 7 t : Vec Ideal S1x10 .f32) (ix2 z j) = (V c main_v38 : S1x10.Idx → EReal) (ix2 z j) := by
  unfold iblk2
  rw [View.read_apply]
  show V c main_v38 _ = V c main_v38 _
  refine congrArg (V c main_v38) (funext fun a => Fin.ext ?_)
  obtain ⟨-, -, -, -, -, -, -, -, -, -, -, -, -, -, e0, e1, -⟩ := idx_facts t
  match a with
  | ⟨0, _⟩ => show win2_7.index t (0 : Fin 2) * 1 + 1 * z.val = z.val; rw [e0]; omega
  | ⟨1, _⟩ => show win2_7.index t (1 : Fin 2) * 10 + 1 * j.val = j.val; rw [e1]; omega

/-- Entry (r, q) of the result's block at point t sits at (5000·t + r, q) of the array. -/
theorem emb8 (t : Fin cfg2.N) (r : Fin 5000) (q : Fin 10) (i : Fin 100000) (hi : i.val = 5000 * t.val + r.val) :
    ((cfg2.win 8).blk t).view.emb (ix2 r q) = (ix2 i q : S100000x10.Idx) := by
  refine funext fun a => Fin.ext ?_
  obtain ⟨-, -, -, -, -, -, -, -, -, -, -, -, -, -, -, -, e0, e1⟩ := idx_facts t
  match a with
  | ⟨0, _⟩ => show win2_8.index t (0 : Fin 2) * 5000 + 1 * r.val = i.val; rw [e0, hi]; omega
  | ⟨1, _⟩ => show win2_8.index t (1 : Fin 2) * 10 + 1 * q.val = q.val; rw [e1]; omega

/-- WHAT POINT t WRITES BACK is block t of the whole-array layer and projection of the arrays as the region finds them. -/
theorem flushed_eq (b2a b2b : FVec Ideal S64 .f32) (lb : FVec Ideal S10 .f32)
    (h36 : ∀ j : Fin 64, (V c main_v36 : S1x64.Idx → EReal) (ix2 (0 : Fin 1) j) = b2a (ix1 j))
    (h37 : ∀ j : Fin 64, (V c main_v37 : S1x64.Idx → EReal) (ix2 (0 : Fin 1) j) = b2b (ix1 j))
    (h38 : ∀ j : Fin 10, (V c main_v38 : S1x10.Idx → EReal) (ix2 (0 : Fin 1) j) = lb (ix1 j))
    (t : Fin cfg2.N) :
    (dat2 (F := Ideal) V c).flushed 8 t = ((cfg2.win 8).blk t).view.read (Elt Ideal)
      (Cert.Stages.head (Cert.Stages.mlp (addf (V c main_v25) (V c main_v35)) (V c main_arg8) b2a (V c main_arg10) b2b) (V c main_arg12) lb) := by
  show (cfg2.win 8).cut (grid2.coords t) ((dat2 V c).after 8 t) = _
  rw [after2_8]
  unfold out2_8
  rw [View.canon_unit_zero hz]
  simp only [View.ld_unit_zero (S := S5000x64) hz, View.ld_unit_zero (S := S64x64) hz, View.ld_unit_zero (S := S1x64) hz,
    View.ld_unit_zero (S := S64x10) hz, View.ld_unit_zero (S := S1x10) hz]
  refine funext fun (y : S5000x10.Idx) => ?_
  obtain ⟨r, q, rfl⟩ : ∃ (r : Fin 5000) (q : Fin 10), y = ix2 r q := ⟨y 0, y 1, eq_ix2 y⟩
  have hi : 5000 * t.val + r.val < 100000 := by have := Nat.lt_of_lt_of_eq t.isLt N_2; omega
  show k2_pay1 (F := Ideal) (iblk2 V c 0 t) (iblk2 V c 1 t) (iblk2 V c 2 t) (iblk2 V c 3 t) (iblk2 V c 4 t) (iblk2 V c 5 t)
      (iblk2 V c 6 t) (iblk2 V c 7 t) (ix2 r q)
    = Cert.Stages.head (Cert.Stages.mlp (addf (V c main_v25) (V c main_v35)) (V c main_arg8) b2a (V c main_arg10) b2b) (V c main_arg12) lb
        (((cfg2.win 8).blk t).view.emb (ix2 r q))
  rw [emb8 t r q ⟨_, hi⟩ rfl]
  refine Eq.trans ?_ (stages_apply (V c main_v25) (V c main_v35) (V c main_arg8) b2a (V c main_arg10) b2b (V c main_arg12) lb
    ⟨_, hi⟩ q).symm
  refine (pay_apply (iblk2 V c 0 t) (iblk2 V c 1 t) (iblk2 V c 2 t) (iblk2 V c 3 t) (iblk2 V c 4 t) (iblk2 V c 5 t)
    (iblk2 V c 6 t) (iblk2 V c 7 t) r q).trans ?_
  exact rowOut_congr q (fun k => blk0_apply V c t r k ⟨_, hi⟩ rfl) (fun k => blk1_apply V c t r k ⟨_, hi⟩ rfl)
    (fun k j => blk2_apply V c t k j) (fun j => (blk3_apply V c t 0 j).trans (h36 j))
    (fun k j => blk4_apply V c t k j) (fun j => (blk5_apply V c t 0 j).trans (h37 j))
    (fun k j => blk6_apply V c t k j) (fun j => (blk7_apply V c t 0 j).trans (h38 j))

/-- An index of the result array is in point t's block iff each coordinate is in the block's range on its axis. -/
theorem mem_blk (t : Fin cfg2.N) (i : S100000x10.Idx) :
    i ∈ ((cfg2.win 8).blk t).view.set ↔ ∀ a : Fin 2, win2_8.index t a * S5000x10.size a ≤ (i a).val
      ∧ (i a).val < win2_8.index t a * S5000x10.size a + S5000x10.size a := by
  show i ∈ ((View.whole main_v39).slice (win2_8.rect t)).set ↔ _
  rw [View.set_slice_whole, Rect.mem_set_unit]
  exact Iff.rfl

/-- Every row of the result is in some point's block: row i is in block i / 5000. -/
theorem cover (i : S100000x10.Idx) :
    ∃ t : Fin cfg2.N, (cfg2.win 8).flush t = true ∧ i ∈ ((cfg2.win 8).blk t).view.set := by
  have hi0 : (i 0).val < 100000 := (i 0).isLt
  have hi1 : (i 1).val < 10 := (i 1).isLt
  have ht : (i 0).val / 5000 < cfg2.N := by rw [show cfg2.N = 20 from N_2]; omega
  obtain ⟨-, -, -, -, -, -, -, -, -, -, -, -, -, -, -, -, e0, e1⟩ := idx_facts ⟨(i 0).val / 5000, ht⟩
  have e0' : win2_8.index ⟨(i 0).val / 5000, ht⟩ (0 : Fin 2) = (i 0).val / 5000 := e0
  refine ⟨⟨(i 0).val / 5000, ht⟩, flush2_8 _, ?_⟩
  rw [mem_blk]
  intro a
  match a with
  | ⟨0, _⟩ =>
    show win2_8.index ⟨(i 0).val / 5000, ht⟩ (0 : Fin 2) * 5000 ≤ (i 0).val
      ∧ (i 0).val < win2_8.index ⟨(i 0).val / 5000, ht⟩ (0 : Fin 2) * 5000 + 5000
    rw [e0']; omega
  | ⟨1, _⟩ =>
    show win2_8.index ⟨(i 0).val / 5000, ht⟩ (1 : Fin 2) * 10 ≤ (i 1).val
      ∧ (i 1).val < win2_8.index ⟨(i 0).val / 5000, ht⟩ (1 : Fin 2) * 10 + 10
    rw [e1]; omega

end Blocks

/-- THE RESULT ARRAY after the region is the whole-array layer and projection of the arrays as the region finds them,
    the one-row biases read as the given vectors. -/
theorem final2 (V : (c : Dev nD) → (b : Ref sig .tc) → Buf (Elt Ideal) ((c : Thread nD τ).loc b)) (c : Dev nD)
    (b2a b2b : FVec Ideal S64 .f32) (lb : FVec Ideal S10 .f32)
    (h36 : ∀ j : Fin 64, (V c main_v36 : S1x64.Idx → EReal) (ix2 (0 : Fin 1) j) = b2a (ix1 j))
    (h37 : ∀ j : Fin 64, (V c main_v37 : S1x64.Idx → EReal) (ix2 (0 : Fin 1) j) = b2b (ix1 j))
    (h38 : ∀ j : Fin 10, (V c main_v38 : S1x10.Idx → EReal) (ix2 (0 : Fin 1) j) = lb (ix1 j)) :
    (Gen.dat2 (F := Ideal) V c).arrAt 8 cfg2.N
      = Cert.Stages.head (Cert.Stages.mlp (addf (V c main_v25) (V c main_v35)) (V c main_arg8) b2a (V c main_arg10) b2b) (V c main_arg12) lb :=
  (Gen.dat2 (F := Ideal) V c).arrAt_eq_of_cover 8 _ (fun t _ => flushed_eq V c b2a b2b lb h36 h37 h38 t) cover

end Cert.KernelIdeal.Region2

end
-- ==== Proof.KValue.lean ====
/-
  The kernel program's result as a function of its arguments.

  The program computes a two-layer graph network region by region.  Each region's output array, assembled from the
  blocks its grid points write back, is a whole-array function of the arrays the region reads (one lemma per region);
  the host stretches between them leave the edge aggregates, the bias rows and the column statistics those regions
  read.  Chained in program order: after the first region the first layer of the arguments, after the second that
  layer normalised by its own column mean and variance, after the third the second layer and the projection of the
  normalised array — the network of `Cert.Stages.out`.
-/
import proofs.«167703_j16226386444396_1_alg».proof.Proof.Gen.KernelIdeal.Frame
import proofs.«167703_j16226386444396_1_alg».proof.Proof.Stages
import proofs.«167703_j16226386444396_1_alg».proof.Proof.KHost
import proofs.«167703_j16226386444396_1_alg».proof.Proof.KRun
import proofs.«167703_j16226386444396_1_alg».proof.Proof.Region0
import proofs.«167703_j16226386444396_1_alg».proof.Proof.Region1
import proofs.«167703_j16226386444396_1_alg».proof.Proof.Region2

set_option maxRecDepth 16384

noncomputable section

namespace Cert.KernelIdeal.KValue

open Idealize.ShloMosaic Idealize.ShloMosaic.TcCoe Idealize.SL.Sem
open Cert.KernelIdeal Cert.KernelIdeal.Gen Cert.KernelIdeal.KHost

variable (m : (ℓ : Loc nD τ sig) → Buf (Elt Ideal) ℓ) (ρ : Dev nD → PrngReg)

/-- After the first region its output array is the first layer of the network applied to the arguments. -/
theorem W2_v16 (c : Dev nD) : W2 m ρ c (Proc.devRef .tc main_v16)
    = Cert.Stages.conv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ?_
  refine (Cert.KernelIdeal.Region0.final0 (V1 m ρ) c (m ((c : Thread nD τ).loc main_arg3)) (m ((c : Thread nD τ).loc main_arg5)) (row_v14 m ρ c) (row_v15 m ρ c)).trans ?_
  show Cert.Stages.mlp (addf (W1 m ρ c (Proc.devRef .tc main_arg0)) (W1 m ρ c (Proc.devRef .tc main_v13)))
      (W1 m ρ c (Proc.devRef .tc main_arg2)) _ (W1 m ρ c (Proc.devRef .tc main_arg4)) _ = _
  rw [W1_arg0 m ρ c, W1_v13 m ρ c, W1_arg2 m ρ c, W1_arg4 m ρ c]
  rfl

/-- After the second region its output array is that layer normalised by its own column statistics. -/
theorem W6_v25 (c : Dev nD) : W6 m ρ c (Proc.devRef .tc main_v25)
    = Cert.Stages.norm (Cert.Stages.conv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) := by
  refine (W6_arr m ρ c 5).trans ?_
  refine (Cert.KernelIdeal.Region1.final1 (V5 m ρ) c _ _ (m ((c : Thread nD τ).loc main_arg6)) (m ((c : Thread nD τ).loc main_arg7)) (row_v21 m ρ c) (row_v22 m ρ c) (row_v23 m ρ c) (row_v24 m ρ c)).trans ?_
  show Cert.Stages.bn (W5 m ρ c (Proc.devRef .tc main_v16)) _ _ _ _ = _
  rw [W5_v16 m ρ c, W2_v16 m ρ c]
  rfl

/-- After the last region the result array is the whole network applied to the arguments. -/
theorem W8_v39 (c : Dev nD) : W8 m ρ c (Proc.devRef .tc main_v39) = Cert.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 8).trans ?_
  refine (Cert.KernelIdeal.Region2.final2 (V7 m ρ) c (m ((c : Thread nD τ).loc main_arg9)) (m ((c : Thread nD τ).loc main_arg11)) (m ((c : Thread nD τ).loc main_arg13)) (row_v36 m ρ c) (row_v37 m ρ c) (row_v38 m ρ c)).trans ?_
  show Cert.Stages.head (Cert.Stages.mlp (addf (W7 m ρ c (Proc.devRef .tc main_v25)) (W7 m ρ c (Proc.devRef .tc main_v35)))
      (W7 m ρ c (Proc.devRef .tc main_arg8)) _ (W7 m ρ c (Proc.devRef .tc main_arg10)) _) (W7 m ρ c (Proc.devRef .tc main_arg12)) _ = _
  rw [W7_v35 m ρ c, W7_v25 m ρ c, W7_arg8 m ρ c, W7_arg10 m ρ c, W7_arg12 m ρ c, W6_v25 m ρ c]
  rfl

/-- Every weakly fair execution of the kernel program terminates with the result array at the network's value of
    the arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v39) = Cert.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c => ⟨(h c).1.trans (W8_v39 m ρ c), (h c).2⟩) (Cert.KernelIdeal.KRun.run_value m ρ)

end Cert.KernelIdeal.KValue

end
-- ==== Proof.RefRun.lean ====
/-
  The reference program's run, read back.

  The reference computes a two-layer graph network with whole-array operations: per destination node the sum of the
  source rows of its incoming edges, an affine map, a clamp at zero, a second affine map; a normalisation of every
  column by its own mean and biased variance with a scale and a shift; the same aggregation and maps again; a last
  affine map to ten columns.  Its @main calls three module-local functions (the clamp, twice; the variance, which
  itself calls a selection); a call executes the callee's body on the operands, each value of the body in a buffer
  of its own.  Here @main is written out as the straight line of its 102 array operations, the callees' operations in
  place at their calls, and the run of that line is read back: every weakly fair execution terminates, the result
  buffer holds `Cert.Stages.out` of the fourteen argument arrays, and the argument arrays are unchanged.
-/
import proofs.«167703_j16226386444396_1_alg».proof.ReferenceIdeal
import proofs.«167703_j16226386444396_1_alg».proof.Proof.Gen.ReferenceIdeal
import proofs.«167703_j16226386444396_1_alg».proof.Proof.Stages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]
/-- @main's 102 operations, in order.  The first 83 are its first sixty statements: the two rows of the edge list as
    index columns, the gather and the scatter-add, the two affine maps with the clamp's three operations (a zero, its
    broadcast, the maximum) between them, the column mean, the variance's twenty-two (the column sum and the mean
    again, the centred squares and their column sum, the divisor, the comparison of the divisor with zero and the
    selection's three), the normalisation, and the second layer's index column and gather.  The last 19 are the
    second scatter-add, the second pair of affine maps with the clamp's three between them, and the projection. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v18 : StableHlo.TRef sig ⟨S100000x64, .f32⟩) main_call0.v0 main_call0.v1 maximumf,
    StableHlo.binary main_v19 main_arg4 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S100000x64 ![0, 1] bcast_S1x64_S100000x64_0_1 : (⟨S1x64, .f32⟩ : BufTy).Contents (Elt F) → (⟨S100000x64, .f32⟩ : BufTy).Contents (Elt F)),
    StableHlo.binary main_v20 main_v22 main_v23 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v23 main_cst_1 main_v24 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v25 (broadcastInDim S64 ![] bcast_S_S64 : (⟨S_, .f32⟩ : BufTy).Contents (Elt F) → (⟨S64, .f32⟩ : BufTy).Contents (Elt F)),
    StableHlo.binary main_v24 main_v25 main_v26 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call1.cst (constant S_ .f32 0x00000000#32),
    StableHlo.TRef.binary (.of main_v23 : StableHlo.TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v23 : StableHlo.TRef sig ⟨S100000x64, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v26 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v23 main_v29 main_v30 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v31 (broadcastInDim S64 ![] bcast_S_S64 : (⟨S_, .f32⟩ : BufTy).Contents (Elt F) → (⟨S64, .f32⟩ : BufTy).Contents (Elt F)),
    StableHlo.binary main_v27 main_v31 main_v32 (addf : (⟨S64, .f32⟩ : BufTy).Contents (Elt F) → (⟨S64, .f32⟩ : BufTy).Contents (Elt F) → (⟨S64, .f32⟩ : BufTy).Contents (Elt F)),
    StableHlo.unary main_v32 main_v33 (Host.rsqrt : (⟨S64, .f32⟩ : BufTy).Contents (Elt F) → (⟨S64, .f32⟩ : BufTy).Contents (Elt F)),
    StableHlo.unary main_v33 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v35 main_v36 (mulf : (⟨S100000x64, .f32⟩ : BufTy).Contents (Elt F) → (⟨S100000x64, .f32⟩ : BufTy).Contents (Elt F) → (⟨S100000x64, .f32⟩ : BufTy).Contents (Elt F)),
    StableHlo.unary main_arg6 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (mulf : (⟨S100000x64, .f32⟩ : BufTy).Contents (Elt F) → (⟨S100000x64, .f32⟩ : BufTy).Contents (Elt F) → (⟨S100000x64, .f32⟩ : BufTy).Contents (Elt F)),
    StableHlo.unary main_arg7 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S100000x64 ![0, 1] bcast_S1x64_S100000x64_0_1 : (⟨S1x64, .f32⟩ : BufTy).Contents (Elt F) → (⟨S100000x64, .f32⟩ : BufTy).Contents (Elt F)),
    StableHlo.binary main_v39 main_v41 main_v42 (addf : (⟨S100000x64, .f32⟩ : BufTy).Contents (Elt F) → (⟨S100000x64, .f32⟩ : BufTy).Contents (Elt F) → (⟨S100000x64, .f32⟩ : BufTy).Contents (Elt F)),
    StableHlo.nullary main_c_5 (constantI S_ 32 0#32),
    StableHlo.unary main_c_5 main_v43 (broadcastInDim S1600000 ![] bcast_S_S1600000 : (⟨S_, .i32⟩ : BufTy).Contents (Elt F) → (⟨S1600000, .i32⟩ : BufTy).Contents (Elt F)),
    StableHlo.binary main_v1 main_v43 main_v44 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v45 (broadcastInDim S1600000 ![] bcast_S_S1600000 : (⟨S_, .i32⟩ : BufTy).Contents (Elt F) → (⟨S1600000, .i32⟩ : BufTy).Contents (Elt F)),
    StableHlo.binary main_v1 main_v45 main_v46 (addi : (⟨S1600000, .i32⟩ : BufTy).Contents (Elt F) → (⟨S1600000, .i32⟩ : BufTy).Contents (Elt F) → (⟨S1600000, .i32⟩ : BufTy).Contents (Elt F)),
    StableHlo.ternary main_v44 main_v46 main_v1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v47 main_v48 (broadcastInDim S1600000x1 ![0] bcast_S1600000_S1600000x1_0 : (⟨S1600000, .i32⟩ : BufTy).Contents (Elt F) → (⟨S1600000x1, .i32⟩ : BufTy).Contents (Elt F)),
    StableHlo.binary main_v42 main_v48 main_v49 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_7 (constant S_ .f32 0x00000000#32),
    StableHlo.unary main_cst_7 main_v50 (broadcastInDim S100000x64 ![] bcast_S_S100000x64 : (⟨S_, .f32⟩ : BufTy).Contents (Elt F) → (⟨S100000x64, .f32⟩ : BufTy).Contents (Elt F)),
    StableHlo.unary main_v3 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v49 main_v52 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v42 main_v52 main_v53 (addf : (⟨S100000x64, .f32⟩ : BufTy).Contents (Elt F) → (⟨S100000x64, .f32⟩ : BufTy).Contents (Elt F) → (⟨S100000x64, .f32⟩ : BufTy).Contents (Elt F)),
    StableHlo.binary main_v53 main_arg8 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v56 main_v57 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v57 : StableHlo.TRef sig ⟨S100000x64, .f32⟩) main_call2.v0 main_call2.v1 maximumf,
    StableHlo.binary main_v58 main_arg10 main_v59 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg11 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v59 main_v61 main_v62 (addf : (⟨S100000x64, .f32⟩ : BufTy).Contents (Elt F) → (⟨S100000x64, .f32⟩ : BufTy).Contents (Elt F) → (⟨S100000x64, .f32⟩ : BufTy).Contents (Elt F)),
    StableHlo.binary main_v62 main_arg12 main_v63 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    StableHlo.unary main_arg13 main_v64 (broadcastInDim S1x10 ![1] bcast_S10_S1x10_1 : (⟨S10, .f32⟩ : BufTy).Contents (Elt F) → (⟨S1x10, .f32⟩ : BufTy).Contents (Elt F)),
    StableHlo.unary main_v64 main_v65 (broadcastInDim S100000x10 ![0, 1] bcast_S1x10_S100000x10_0_1 : (⟨S1x10, .f32⟩ : BufTy).Contents (Elt F) → (⟨S100000x10, .f32⟩ : BufTy).Contents (Elt F)),
    StableHlo.binary main_v63 main_v65 main_v66 (addf : (⟨S100000x10, .f32⟩ : BufTy).Contents (Elt F) → (⟨S100000x10, .f32⟩ : BufTy).Contents (Elt F) → (⟨S100000x10, .f32⟩ : BufTy).Contents (Elt F)) ]

set_option maxRecDepth 8192 in
set_option maxHeartbeats 4000000 in
/-- @main is that straight line: its two windows in order, the functions' definitions unfolded at their calls and the
    call records at their fields; both sides are one chain of steps once sequencing is reassociated. -/
theorem main_eq (c : Dev nD) : main (F := F) c = seq ops := by
  simp only [main, main_part0, main_part1, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the TensorCore only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., binary_bufs_sub .., unary_bufs_sub .., unary_bufs_sub .., binary_bufs_sub ..⟩

/-- From any memory with zero counters, every weakly fair execution of @main terminates, and every final state has
    each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffers the line writes, one per operation, in order: every buffer that is not an argument's. -/
abbrev written : List (Ref sig .tc) :=
  [ main_v0, main_v1, main_v2, main_v3, main_c, main_v4, main_v5, main_c_0, main_v6, main_v7,
    main_v8, main_v9, main_v10, main_cst, main_v11, main_v12, main_v13, main_v14, main_v15, main_v16,
    main_v17, main_v18, main_call0_cst, main_call0_v0, main_v19, main_v20, main_v21, main_v22, main_v23, main_cst_1,
    main_v24, main_cst_2, main_v25, main_v26, main_c_3, main_call1_cst, main_call1_v0, main_call1_v1, main_call1_cst_0, main_call1_v2,
    main_call1_v3, main_call1_v4, main_call1_v5, main_call1_v6, main_call1_v7, main_call1_cst_1, main_call1_v8, main_call1_cst_2, main_call1_v9, main_call1_v10,
    main_call1_v11, main_call1_cst_3, main_call1_v12, main_call1_cst_4, main_call1_call0_v0, main_call1_call0_v1, main_v27, main_v28, main_v29, main_v30,
    main_cst_4, main_v31, main_v32, main_v33, main_v34, main_v35, main_v36, main_v37, main_v38, main_v39,
    main_v40, main_v41, main_v42, main_c_5, main_v43, main_v44, main_c_6, main_v45, main_v46, main_v47,
    main_v48, main_v49, main_cst_7, main_v50, main_v51, main_v52, main_v53, main_v54, main_v55, main_v56,
    main_v57, main_call2_cst, main_call2_v0, main_v58, main_v59, main_v60, main_v61, main_v62, main_v63, main_v64,
    main_v65, main_v66 ]

/-- Each operation writes its result buffer only, and that buffer is in the list. -/
theorem written_sub : (ops : List (HloOp τ sig (Elt F))).Forall fun op => op.writes ⊆ (written.map (Proc.devRef (τ := τ) .tc)).toFinset := by
  simp only [ops, List.Forall, nullary_writes, unary_writes, binary_writes, ternary_writes, reshape_writes,
    Finset.singleton_subset_iff, List.mem_toFinset]
  repeat' apply And.intro
  all_goals exact List.mem_map_of_mem (by decide)

/-- A buffer the line does not write — an argument's — keeps its contents. -/
theorem arg_eq (V : Valuation τ sig (Elt F)) (r : Ref sig .tc) (hr : r ∉ written) :
    after ops V (r : DevRef τ sig) = V (r : DevRef τ sig) :=
  after_of_writes_sub ops V written_sub hr

attribute [local irreducible] Host.reduceAdd Host.gather Host.scatterAdd Host.divf Host.rsqrt in
set_option maxRecDepth 16384 in
set_option maxHeartbeats 4000000 in
/-- The fold of the line at the result buffer is the network of the argument buffers' contents.  Each operation's
    result is its function of its operands' contents and every other buffer is left as it was, so the contents of the
    result buffer unfold, operation by operation, to one term over the fourteen arguments; the stages are spelled
    with the same whole-array operations in the same order (the index columns, gather and scatter-add as `agg`; sum,
    affine map, clamp, affine map as `conv`; column mean and biased variance, shift, scale, scale, shift as `norm`;
    the last affine map as `head`), so the two terms agree by unfolding the stages' definitions.  The sums, gathers,
    scatters, quotients and reciprocal square roots are kept folded meanwhile: the equation never looks inside them. -/
theorem out_eq (V : Valuation τ sig (Elt Ideal)) :
    after (ops (F := Ideal)) V (main_v66 : DevRef τ sig)
      = Cert.Stages.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  rfl

/-- Every weakly fair execution of the reference's @main from memory `m` terminates; in every final state the result
    buffer holds the network `Cert.Stages.out` of the fourteen argument arrays as launched, and the argument arrays
    are as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66)
        = Cert.Stages.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v66).trans (out_eq (launchContents m c)),
      (h c main_arg0).trans (arg_eq (launchContents m c) main_arg0 (by decide)),
      (h c main_arg1).trans (arg_eq (launchContents m c) main_arg1 (by decide)),
      (h c main_arg2).trans (arg_eq (launchContents m c) main_arg2 (by decide)),
      (h c main_arg3).trans (arg_eq (launchContents m c) main_arg3 (by decide)),
      (h c main_arg4).trans (arg_eq (launchContents m c) main_arg4 (by decide)),
      (h c main_arg5).trans (arg_eq (launchContents m c) main_arg5 (by decide)),
      (h c main_arg6).trans (arg_eq (launchContents m c) main_arg6 (by decide)),
      (h c main_arg7).trans (arg_eq (launchContents m c) main_arg7 (by decide)),
      (h c main_arg8).trans (arg_eq (launchContents m c) main_arg8 (by decide)),
      (h c main_arg9).trans (arg_eq (launchContents m c) main_arg9 (by decide)),
      (h c main_arg10).trans (arg_eq (launchContents m c) main_arg10 (by decide)),
      (h c main_arg11).trans (arg_eq (launchContents m c) main_arg11 (by decide)),
      (h c main_arg12).trans (arg_eq (launchContents m c) main_arg12 (by decide)),
      (h c main_arg13).trans (arg_eq (launchContents m c) main_arg13 (by decide))⟩)
    (run_main m ρ)

end Cert.ReferenceIdeal.RefRun

end
-- ==== Proof.lean ====
/-
  The certificate: a graph network of two sum-aggregation layers with a column normalisation between them, computed
  by a program of three pipelined regions (the two layers' dense parts and the normalisation, over blocks of 5000 of
  the 100000 node rows) among host operations (the edge aggregation, the column mean and variance), against the same
  network written with whole-array operations.

  Over the extended reals the two agree exactly: a region's block of rows is the same rows of the whole-array
  operation (a matrix product row by row is a sum over the 64 shared columns on both sides; casts to a shorter float
  format are the identity; the remaining operations act entry by entry), and the host operations between the regions
  are the reference's own.  No algebraic law beyond that is needed, so the finiteness of the inputs is never used.
  Both programs terminate without a fault and leave their arguments unchanged.
-/
import proofs.«167703_j16226386444396_1_alg».proof.Defs
import proofs.«167703_j16226386444396_1_alg».proof.Proof.Gen.Kernel
import proofs.«167703_j16226386444396_1_alg».proof.Proof.Gen.Kernel.Skeleton
import proofs.«167703_j16226386444396_1_alg».proof.Proof.Gen.Kernel.Launch
import proofs.«167703_j16226386444396_1_alg».proof.Proof.Gen.Kernel.Points
import proofs.«167703_j16226386444396_1_alg».proof.Proof.Gen.Kernel.Frame
import proofs.«167703_j16226386444396_1_alg».proof.Proof.Gen.KernelIdeal
import proofs.«167703_j16226386444396_1_alg».proof.Proof.Gen.KernelIdeal.Skeleton
import proofs.«167703_j16226386444396_1_alg».proof.Proof.Gen.KernelIdeal.Launch
import proofs.«167703_j16226386444396_1_alg».proof.Proof.Gen.KernelIdeal.Points
import proofs.«167703_j16226386444396_1_alg».proof.Proof.Gen.KernelIdeal.Frame
import proofs.«167703_j16226386444396_1_alg».proof.Proof.Gen.ReferenceIdeal
import proofs.«167703_j16226386444396_1_alg».proof.Proof.Gen.Pre_finite_inputs
import Idealize.ShloMosaic.Adequacy
import Idealize.ShloMosaic.Init
import proofs.«167703_j16226386444396_1_alg».proof.Proof.KValue
import proofs.«167703_j16226386444396_1_alg».proof.Proof.RefRun

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.RefRun.run m ρ)

/-- The idealised kernel program is the kernel program's own text: no operation was rewritten. -/
theorem preserves : Cert.preserves_Kernel_KernelIdeal := trivial

/-- Over the extended reals both programs end with the same array: each computes the two-layer network of
    `Cert.Stages.out` of its arguments — the kernel program region by region over blocks of 5000 rows, the reference
    with whole-array operations — and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11, h12, h13⟩ := hagree c
  rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
